-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x1024x1024 : Shape := ⟨3, ![64, 1024, 1024]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  main_v18

def fn {F : FTy → Type} [FloatOps F] (main_arg0 : FVec F S64x1024x128 .f32) (main_arg1 : FVec F S64x1024x128 .f32) (main_arg2 : FVec F S64x1024x128 .f32) (main_arg3 : FVec F S64x1024x1024 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x1024x128 .f32 := Host.absf main_arg1
  let main_cst_0 : FVec F S_ .f32 := constant S_ .f32 0x7F800000#32
  let main_v5 : FVec F S64x1024x128 .f32 := broadcastInDim S64x1024x128 ![] bcast_S_S64x1024x128 main_cst_0
  let main_v6 : IVec S64x1024x128 1 := cmpf .olt main_v4 main_v5
  let main_c_1 : IVec S_ 1 := constantI S_ 1 1#1
  let main_v7 : IVec S_ 1 := (fun x v => Host.reduce IntOp.andi x v reducesTo_S64x1024x128_S_d0_1_2 h_S_) main_v6 main_c_1
  let main_v8 : IVec S_ 1 := andi main_v3 main_v7
  let main_v9 : FVec F S64x1024x128 .f32 := Host.absf main_arg2
  let main_cst_2 : FVec F S_ .f32 := constant S_ .f32 0x7F800000#32
  let main_v10 : FVec F S64x1024x128 .f32 := broadcastInDim S64x1024x128 ![] bcast_S_S64x1024x128 main_cst_2
  let main_v11 : IVec S64x1024x128 1 := cmpf .olt main_v9 main_v10
  let main_c_3 : IVec S_ 1 := constantI S_ 1 1#1
  let main_v12 : IVec S_ 1 := (fun x v => Host.reduce IntOp.andi x v reducesTo_S64x1024x128_S_d0_1_2 h_S_) main_v11 main_c_3
  let main_v13 : IVec S_ 1 := andi main_v8 main_v12
  let main_v14 : FVec F S64x1024x1024 .f32 := Host.absf main_arg3
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_v13 main_v16
-- ==== Kernel.lean ====
abbrev S64x1024x128 : Shape := ⟨3, ![64, 1024, 128]⟩
abbrev S64x1024x1024 : Shape := ⟨3, ![64, 1024, 1024]⟩
abbrev S1x1 : Shape := ⟨2, ![1, 1]⟩
abbrev S1x1024x128 : Shape := ⟨3, ![1, 1024, 128]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x512x128 : Shape := ⟨3, ![1, 512, 128]⟩
abbrev S1x512x1024 : Shape := ⟨3, ![1, 512, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 19
  | .smem => 0
  | _ => 0

abbrev bufTy : (tb : Table) → Fin (tcTables nBuf tb) → BufTy
  | .hbm, ⟨0, _⟩ => ⟨S64x1024x128, .f32⟩
  | .hbm, ⟨1, _⟩ => ⟨S64x1024x128, .f32⟩
  | .hbm, ⟨2, _⟩ => ⟨S64x1024x128, .f32⟩
  | .hbm, ⟨3, _⟩ => ⟨S64x1024x1024, .f32⟩
  | .hbm, ⟨4, _⟩ => ⟨S1x1, .f32⟩
  | .hbm, ⟨5, _⟩ => ⟨S64x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1, .f32⟩
  | .local _ .vmem, ⟨7, _⟩ => ⟨S1x1, .f32⟩
  | .local _ .vmem, ⟨8, _⟩ => ⟨S1x512x128, .f32⟩
  | .local _ .vmem, ⟨9, _⟩ => ⟨S1x512x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x512x1024, .f32⟩
  | .local _ .vmem, ⟨15, _⟩ => ⟨S1x512x1024, .f32⟩
  | .local _ .vmem, ⟨16, _⟩ => ⟨S1x1, .f32⟩
  | .local _ .vmem, ⟨17, _⟩ => ⟨S1x512x128, .f32⟩
  | .local _ .vmem, ⟨18, _⟩ => ⟨S1x512x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v23 : BitVec 1 := Scalar.cmpi .eq arg0 c63_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1_S512x1024 : S1x1.Broadcasts S512x1024
  reduces_S512x1024_S512 : S512x1024.Reduces [1] S512
  shapeCasts_S512_S512x1 : S512.ShapeCasts S512x1
  broadcasts_S512x1_S512x1024 : S512x1.Broadcasts S512x1024
  shapeCasts_S512x128_S1x512x128 : S512x128.ShapeCasts S1x512x128
  dot_S1024x128_S128x1024_S1024x1024_1_0_0_1_n_n_wf : DotDims.WF S1024x128 S128x1024 S1024x1024 [1] [0] [0] [1] [] []
  dot_S512x128_S128x1024_S512x1024_1_0_0_1_n_n_wf : DotDims.WF S512x128 S128x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x1024x128.size a
  hwx0_0 : ∀ i : grid0.Coords, EltTy.bits .f32 = 32 ∨ (Rect.block (s := S64x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x1024x128.size a
  hwx0_1 : ∀ i : grid0.Coords, EltTy.bits .f32 = 32 ∨ (Rect.block (s := S64x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S64x1024x128.size a
  hwx1_0 : ∀ i : grid1.Coords, EltTy.bits .f32 = 32 ∨ (Rect.block (s := S64x1024x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S64x1024x128.size a
  hwx1_1 : ∀ i : grid1.Coords, EltTy.bits .f32 = 32 ∨ (Rect.block (s := S64x1024x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S64x1024x128.size a
  hwx1_2 : ∀ i : grid1.Coords, EltTy.bits .f32 = 32 ∨ (Rect.block (s := S64x1024x128) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S64x1024x1024.size a
  hwx1_3 : ∀ i : grid1.Coords, EltTy.bits .f32 = 32 ∨ (Rect.block (s := S64x1024x1024) S1x512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x128.size a ≤ S64x1024x128.size a
  hwx1_5 : ∀ i : grid1.Coords, EltTy.bits .f32 = 32 ∨ (Rect.block (s := S64x1024x128) S1x512x128.size (cc1_transform_5 i) (hinb1_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x1024x128 : Shape := ⟨3, ![64, 1024, 128]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024x128, .f32⟩
  | .hbm, ⟨2, _⟩ => ⟨S64x1024x128, .f32⟩
  | .hbm, ⟨3, _⟩ => ⟨S64x1024x1024, .f32⟩
  | .hbm, ⟨4, _⟩ => ⟨S64x1024x1024, .f32⟩
  | .hbm, ⟨5, _⟩ => ⟨S64x1024x1024, .f32⟩
  | .hbm, ⟨6, _⟩ => ⟨S_, .f32⟩
  | .hbm, ⟨7, _⟩ => ⟨S_, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024, .f32⟩
  | .hbm, ⟨14, _⟩ => ⟨S64x1024x1, .f32⟩
  | .hbm, ⟨15, _⟩ => ⟨S_, .f32⟩
  | .hbm, ⟨16, _⟩ => ⟨S64x1024x1, .f32⟩
  | .hbm, ⟨17, _⟩ => ⟨S64x1024x1, .f32⟩
  | .hbm, ⟨18, _⟩ => ⟨S64x1024x1024, .f32⟩
  | .hbm, ⟨19, _⟩ => ⟨S64x1024x1024, .f32⟩
  | .hbm, ⟨20, _⟩ => ⟨S64x1024x128, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S64x1024x1024_S_d0_1_2 : S64x1024x1024.ReducesTo [0, 1, 2] S_
  h_S_ : 0 < S_.numel
  bcast_S_S64x1024x1024 : S_.BroadcastsInDim S64x1024x1024 (![] : Fin 0 → Fin S64x1024x1024.rank)
  reducesTo_S64x1024x1024_S64x1024_d2 : S64x1024x1024.ReducesTo [2] S64x1024
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x1024_0_1_2 : S64x1024x1.BroadcastsInDim S64x1024x1024 (![0, 1, 2] : Fin 3 → Fin S64x1024x1024.rank)
  dot_S64x1024x128_S64x1024x128_S64x1024x1024_2_2_1_1_0_0_wf : DotDims.WF S64x1024x128 S64x1024x128 S64x1024x1024 [2] [2] [1] [1] [0] [0]
  dot_S64x1024x1024_S64x1024x128_S64x1024x128_2_1_1_2_0_0_wf : DotDims.WF S64x1024x1024 S64x1024x128 S64x1024x128 [2] [1] [1] [2] [0] [0]

variable [Facts₀]

def dot_S64x1024x128_S64x1024x128_S64x1024x1024_2_2_1_1_0_0 : DotDims S64x1024x128 S64x1024x128 S64x1024x1024 where
  lhsContracting := [2]
  rhsContracting := [2]
  lhsNonContracting := [1]
  rhsNonContracting := [1]
  lhsBatch := [0]
  rhsBatch := [0]
  wf := dot_S64x1024x128_S64x1024x128_S64x1024x1024_2_2_1_1_0_0_wf
def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf

class Facts : Prop extends Facts₀ where

variable [Facts]
-- ==== Proof.WordMaxPass.lean ====
import proofs.«147856_j76587856823055_1_alg».proof.Proof.Gen.Kernel.Launch
import proofs.«147856_j76587856823055_1_alg».proof.Proof.Gen.Kernel.Skeleton
import proofs.«147856_j76587856823055_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass: the running maximum of the masked scores

One grid point per batch entry. At point `t` the body forms the masked scores `(q_t · k_tᵀ) ⊙ mask_t`, takes their
maximum over both axes, and folds it into a one-cell accumulator: the accumulator is reset to `-∞` at the first point,
and copied to the result at the last one. -/

/-- The offsets of a whole-block access: all zero. -/
theorem z2 : (![0, 0] : Fin 2 → ℕ) = fun _ => 0 := by funext a; fin_cases a <;> rfl
theorem z3 : (![0, 0, 0] : Fin 3 → ℕ) = fun _ => 0 := by funext a; fin_cases a <;> rfl

/-- The body's first branch is taken exactly at the first batch entry, -/
abbrev firstPt (i : grid0.Coords) : Prop := (Scalar.cmpi .ne (Scalar.extui (Scalar.cmpi .eq (BitVec.ofNat 32 (i 0).val) 0#32)) 0#32) = 1#1
theorem firstPt_iff : ∀ t : Fin cfg0.N, firstPt (grid0.coords t) ↔ t.val = 0 :=
  (by decide +kernel : ∀ t : Fin grid0.N, firstPt (grid0.coords t) ↔ t.val = 0)
/-- and its last branch exactly at the last one. -/
abbrev lastPt (i : grid0.Coords) : Prop := k0_cond2 i = 1#1
theorem lastPt_iff : ∀ t : Fin cfg0.N, lastPt (grid0.coords t) ↔ t.val = 63 :=
  (by decide +kernel : ∀ t : Fin grid0.N, lastPt (grid0.coords t) ↔ t.val = 63)

/-- The inputs are read at every point; the result cell is written only at the last point, and only then written back. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬lastPt (grid0.coords t) → cfg0.idle 3 (grid0.coords t) = true := by decide +kernel
theorem noFlush0_3 : ∀ t : Fin cfg0.N, ¬lastPt (grid0.coords t) → (cfg0.win 3).flush t = false := by decide +kernel
theorem live0_3 : ∀ t : Fin cfg0.N, lastPt (grid0.coords t) → cfg0.idle 3 (grid0.coords t) = false := by decide +kernel

/-! ## The body, case by case -/

set_option maxHeartbeats 1000000 in
/-- At the first point the accumulator, whatever it held, ends at the maximum of `-∞` and this entry's scores. -/
theorem body_first (c : Dev nD) (E : Set ℕ) (i : grid0.Coords) (h1 : firstPt i) (h2 : ¬ lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (k0_pay2 x0 x1 x2 (k0_pay1 (F := F)))) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩),
    View.canon_cons_unit_zero (S := S1x1) z2,
    View.readCov_unit_zero (S := S1x1) _ z2]
  simp only [View.readAt_eq_ld, View.ld_unit_zero (S := S1x1024x128) z3, View.ld_unit_zero (S := S1x1024x1024) z3, View.ld_unit_zero (S := S1x1) z2]

set_option maxHeartbeats 1000000 in
/-- At a point that is neither first nor last the accumulator `s` ends at the maximum of `s` and this entry's scores. -/
theorem body_mid (c : Dev nD) (E : Set ℕ) (i : grid0.Coords) (h1 : ¬ firstPt i) (h2 : ¬ lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (s : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg5 fullShare (k0_pay2 x0 x1 x2 s)) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩), View.canon_unit_zero (S := S1x1) z2]
  simp only [View.readAt_eq_ld, View.ld_unit_zero (S := S1x1024x128) z3, View.ld_unit_zero (S := S1x1024x1024) z3, View.ld_unit_zero (S := S1x1) z2]

set_option maxHeartbeats 1000000 in
/-- At the last point the accumulator is updated the same way and its new value is also stored to the result cell. -/
theorem body_last (c : Dev nD) (E : Set ℕ) (i : grid0.Coords) (h1 : ¬ firstPt i) (h2 : lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (s : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2 s)
            ∗ owns (c : Thread nD τ) arg5 fullShare (k0_pay2 x0 x1 x2 s)) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero (S := S1x1) z2 Facts₀.inb_S1x1_S1x1_0_0 y⟩), View.canon_unit_zero (S := S1x1) z2,
      View.readCov_unit_zero (S := S1x1) _ z2]
    simp only [View.readAt_eq_ld, View.ld_unit_zero (S := S1x1024x128) z3, View.ld_unit_zero (S := S1x1024x1024) z3, View.ld_unit_zero (S := S1x1) z2]
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩), View.canon_unit_zero (S := S1x1) z2]
  simp only [View.readAt_eq_ld, View.ld_unit_zero (S := S1x1024x128) z3, View.ld_unit_zero (S := S1x1024x1024) z3, View.ld_unit_zero (S := S1x1) z2]

/-! ## The pass over the grid, at the contents `V` it is entered from -/

section Pass
variable (V : (c : Dev nD) → (b : Ref sig .tc) → Buf (Elt F) ((c : Thread nD τ).loc b))

/-- Window `w`'s block at point `t`: batch entry `t` of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- THE RUNNING MAXIMUM: the accumulator after point `n` — the maximum of `-∞` and the scores of the entries `0 … n`,
    folded one entry at a time. -/
def runMax (c : Dev nD) : (n : ℕ) → n < cfg0.N → Vec F S1x1 .f32
  | 0, hn => k0_pay2 (blk0 V c 0 ⟨0, hn⟩) (blk0 V c 1 ⟨0, hn⟩) (blk0 V c 2 ⟨0, hn⟩) (k0_pay1 (F := F))
  | n + 1, hn => k0_pay2 (blk0 V c 0 ⟨n + 1, hn⟩) (blk0 V c 1 ⟨n + 1, hn⟩) (blk0 V c 2 ⟨n + 1, hn⟩) (runMax c n (Nat.lt_of_succ_lt hn))

theorem runMax_first (c : Dev nD) (t : Fin cfg0.N) (hz : t.val = 0) :
    runMax V c t.val t.isLt = k0_pay2 (blk0 V c 0 t) (blk0 V c 1 t) (blk0 V c 2 t) (k0_pay1 (F := F)) := by
  obtain ⟨n, hn⟩ := t
  cases n with
  | zero => rfl
  | succ n => exact absurd hz (Nat.succ_ne_zero n)

theorem runMax_later (c : Dev nD) (t : Fin cfg0.N) (hz : t.val ≠ 0) :
    runMax V c t.val t.isLt = k0_pay2 (blk0 V c 0 t) (blk0 V c 1 t) (blk0 V c 2 t)
      (runMax V c (t.val - 1) (Nat.lt_of_le_of_lt (Nat.sub_le _ _) t.isLt)) := by
  obtain ⟨n, hn⟩ := t
  cases n with
  | zero => exact absurd rfl hz
  | succ n => rfl

/-- The accumulator cell, -/
abbrev accCell : Memref sig .tc .vmem S1x1 .f32 := Memref.whole cc0_scratch0
/-- and the other scoped buffers of the core (the second pass's), which this pass never touches, each at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the pass may use beside its windows, before its first point: the accumulator and the other scoped buffers at
    anything, and the generator register. -/
theorem PhiA0_eq (c : Dev nD) :
    (Pipeline.ΦA spec0 c : sProp 𝕄)
      = iprop(((∃ d, owns (c : Thread nD τ) accCell fullShare d) ∗ otherScoped0 (F := F) c) ∗ (∃ r, prngReg c r)) := by
  unfold Pipeline.ΦA otherScoped0; rw [scopedRest0_eq]; simp only [accCell, owns_whole]; rfl

/-- The invariant before position `n`: at the start nothing is known of the accumulator; afterwards it holds the
    running maximum of the points before. -/
def PhiS (c : Dev nD) : (n : ℕ) → n ≤ cfg0.N → sProp 𝕄
  | 0, _ => Pipeline.ΦA spec0 c
  | n + 1, hn => iprop((owns (c : Thread nD τ) accCell fullShare (runMax V c n hn) ∗ otherScoped0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) accCell fullShare (runMax V c n hn) ∗ otherScoped0 (F := F) c) ∗ (∃ r, prngReg c r)) := rfl
theorem PhiS_pos (c : Dev nD) (n : ℕ) (h : n ≤ cfg0.N) (hz : n ≠ 0) :
    PhiS V c n h = iprop((owns (c : Thread nD τ) accCell fullShare (runMax V c (n - 1) (by omega)) ∗ otherScoped0 (F := F) c) ∗ (∃ r, prngReg c r)) := by
  cases n with
  | zero => exact absurd rfl hz
  | succ n => rfl

/-- The pass's proof data: each input's buffer keeps its block; the result cell, where it is written, holds the running
    maximum; the invariant is `PhiS`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => runMax V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = runMax V c t.val t.isLt := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which case the point is in is read off its position; the invariant hands the body the
    accumulator at the running maximum of the points before (at anything, at the first point) and takes it back one
    entry further. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 64 := lt_of_lt_of_eq t.isLt (show cfg0.N = 64 from N_0)
  by_cases hz : t.val = 0
  · have h1 : firstPt (grid0.coords t) := (firstPt_iff t).mpr hz
    have h2 : ¬ lastPt (grid0.coords t) := fun h => by have := (lastPt_iff t).mp h; omega
    rw [Dat.leavesExact_idle (dat0 V c) 3 t (idle0_3 t h2) (noFlush0_3 t h2)]
    rw [runMax_first V c t hz]
    rw [PhiS_castSucc V c t, PhiS_zero V c _ _ hz, PhiA0_eq]
    iintro ⟨⟨⟨HS, HR⟩, Hg⟩, Ho, ⟨%d0, H0⟩, ⟨%d1, H1⟩, ⟨%d2, H2⟩, H3⟩
    iapply (body_first c Set.univ (grid0.coords t) h1 h2 _ _ _ _ _ _ _ _ _ _ (blk0 V c 0 t) (blk0 V c 1 t) (blk0 V c 2 t) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have h1 : ¬ firstPt (grid0.coords t) := fun h => hz ((firstPt_iff t).mp h)
    rw [runMax_later V c t hz]
    rw [PhiS_castSucc V c t, PhiS_pos V c _ _ hz]
    by_cases hl : t.val = 63
    · have h2 : lastPt (grid0.coords t) := (lastPt_iff t).mpr hl
      rw [show (dat0 V c).leavesExact 3 t = owns (c : Thread nD τ) (st0_3 t) fullShare ((dat0 V c).after 3 t) from by
        unfold Dat.leavesExact; rw [live0_3 t h2], after0_3, runMax_later V c t hz]
      iintro ⟨⟨⟨HS, HR⟩, Hg⟩, Ho, ⟨%d0, H0⟩, ⟨%d1, H1⟩, ⟨%d2, H2⟩, ⟨%d3, H3⟩⟩
      iapply (body_last c Set.univ (grid0.coords t) h1 h2 _ _ _ _ _ _ _ _ _ _ (blk0 V c 0 t) (blk0 V c 1 t) (blk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have h2 : ¬ lastPt (grid0.coords t) := fun h => hl ((lastPt_iff t).mp h)
      rw [Dat.leavesExact_idle (dat0 V c) 3 t (idle0_3 t h2) (noFlush0_3 t h2)]
      iintro ⟨⟨⟨HS, HR⟩, Hg⟩, Ho, ⟨%d0, H0⟩, ⟨%d1, H1⟩, ⟨%d2, H2⟩, H3⟩
      iapply (body_mid c Set.univ (grid0.coords t) h1 h2 _ _ _ _ _ _ _ _ _ _ (blk0 V c 0 t) (blk0 V c 1 t) (blk0 V c 2 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

theorem body_obligation0 (c : Dev nD) : BodyObligation (dat0 (F := F) V c) (defs₀ (F := F)) Variants.none () Set.univ := fun t => by
  rw [bigSep_W0, bigSep_W0]
  exact sound_body0 V c t

/-- What the pass is handed beside its windows is the invariant before its first point, -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after its last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

end Pass

end Cert.Kernel.Hand

end
-- ==== Proof.WordAttnPass.lean ====
import proofs.«147856_j76587856823055_1_alg».proof.Proof.Gen.Kernel.Launch
import proofs.«147856_j76587856823055_1_alg».proof.Proof.Gen.Kernel.Skeleton
import proofs.«147856_j76587856823055_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass: the normalised weights applied to the values

One grid point per batch entry and half of the query rows. At a point the body forms the masked scores of its query
rows against all keys, subtracts the given maximum, exponentiates, masks again, divides each row by its sum plus a
small constant, and multiplies by the values. Every point is independent of the others. -/

theorem y2 : (![0, 0] : Fin 2 → ℕ) = fun _ => 0 := by funext a; fin_cases a <;> rfl
theorem y3 : (![0, 0, 0] : Fin 3 → ℕ) = fun _ => 0 := by funext a; fin_cases a <;> rfl

set_option maxHeartbeats 1000000 in
/-- The body on whole staging buffers: the inputs are left as found and the output block ends at the body's one stored
    value, a function of the five input blocks. -/
theorem body_attn (c : Dev nD) (E : Set ℕ) (i : grid1.Coords)
    (arg2 : Memref sig .tc .vmem S1x512x128 .f32) (harg2 : arg2.IsWhole) (arg3 : Memref sig .tc .vmem S1x1024x128 .f32) (harg3 : arg3.IsWhole)
    (arg4 : Memref sig .tc .vmem S1x1024x128 .f32) (harg4 : arg4.IsWhole) (arg5 : Memref sig .tc .vmem S1x512x1024 .f32) (harg5 : arg5.IsWhole)
    (arg6 : Memref sig .tc .vmem S1x1 .f32) (harg6 : arg6.IsWhole) (arg7 : Memref sig .tc .vmem S1x512x128 .f32) (harg7 : arg7.IsWhole)
    (x0 : Vec F S1x512x128 .f32) (x1 : Vec F S1x1024x128 .f32) (x2 : Vec F S1x1024x128 .f32) (x3 : Vec F S1x512x1024 .f32) (x4 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x2 x3 x4)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self, View.mem_set_unit_zero (S := S1x512x128) y3 Facts₀.inb_S1x512x128_S1x512x128_0_0_0 y⟩), View.canon_unit_zero (S := S1x512x128) y3]
  simp only [View.readAt_eq_ld, View.ld_unit_zero (S := S1x512x128) y3, View.ld_unit_zero (S := S1x1024x128) y3,
    View.ld_unit_zero (S := S1x512x1024) y3, View.ld_unit_zero (S := S1x1) y2]

/-! ## The pass over the grid, at the contents `V` it is entered from -/

section Pass
variable (V : (c : Dev nD) → (b : Ref sig .tc) → Buf (Elt F) ((c : Thread nD τ).loc b))

/-- Window `w`'s block at point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether or not it was fetched there: a block not fetched
    again (the keys, the values, the maximum) has not moved. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- What point `t` stores in the output block: the body's value of the point's input blocks. -/
def outBlk (c : Dev nD) (t : Fin cfg1.N) : Vec F S1x512x128 .f32 :=
  k1_pay1 (blk1 V c 0 t) (blk1 V c 1 t) (blk1 V c 2 t) (blk1 V c 3 t) (blk1 V c 4 t)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outBlk V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_attn c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Pass

end Cert.Kernel.Hand

end
-- ==== Proof.WordRun.lean ====
import proofs.«147856_j76587856823055_1_alg».proof.Proof.Gen.Kernel.Launch
import proofs.«147856_j76587856823055_1_alg».proof.Proof.Gen.Kernel.Skeleton
import proofs.«147856_j76587856823055_1_alg».proof.Proof.Gen.Kernel.Points
import proofs.«147856_j76587856823055_1_alg».proof.Proof.WordMaxPass
import proofs.«147856_j76587856823055_1_alg».proof.Proof.WordAttnPass
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The two passes in sequence

The program is the first pass followed by the second, with no host operation between them. The contents of the core's
buffers are followed from the launch through both passes: each pass leaves its inputs as it found them and its result
at what its write-backs leave, so at the end the arguments are as launched, the one-cell buffer holds the first pass's
result and the result array the second pass's. -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- after the first pass (its arrays at what its write-backs leave, every other buffer as before), -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- and after the second. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: each pass only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- The result array ends at what the second pass's write-backs leave. -/
theorem W2_main_v1 (c : Dev nD) : W2 m ρ c (Proc.devRef .tc main_v1) = (dat1 (V1 m ρ) c).arrAt 5 cfg1.N := W2_arr m ρ c 5
/-- The second pass finds the one-cell buffer at what the first pass's write-back left, and the arguments as launched. -/
theorem V1_main_v0 (c : Dev nD) : V1 m ρ c main_v0 = (dat0 (V0 m ρ) c).arrAt 3 cfg0.N := W1_arr m ρ c 3
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_main_arg2 (c : Dev nD) : V1 m ρ c main_arg2 = m ((c : Thread nD τ).loc main_arg2) :=
  W1_of_ne m ρ c main_arg2 (by decide)
theorem V1_main_arg3 (c : Dev nD) : V1 m ρ c main_arg3 = m ((c : Thread nD τ).loc main_arg3) :=
  (W1_arr m ρ c 2).trans (((dat0 (V0 m ρ) c).arrAt_in 2 rfl _).trans (A_eq0 (V0 m ρ) c 2))

/-! ## The passes as segments of the program -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P
        ∗ Pipeline.scopedRest (Ix := Unit) (Name := ℕ) (U := UR sig nD τ) (Lvl := ℕ) (Val := Elt F) spec0 c) ⊢ Pipeline.ΦA spec0 c := by
      intro P
      unfold Pipeline.ΦA
      iintro ⟨Hp, -, Hr⟩
      isplitl [Hr]; · iexact Hr
      iexact Hp
    exact (h _).trans (hin0 (V0 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and every unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.Kernel.Hand

end
-- ==== Proof.IdealMaxPass.lean ====
import proofs.«147856_j76587856823055_1_alg».proof.Proof.Gen.KernelIdeal.Launch
import proofs.«147856_j76587856823055_1_alg».proof.Proof.Gen.KernelIdeal.Skeleton
import proofs.«147856_j76587856823055_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass: the running maximum of the masked scores

One grid point per batch entry. At point `t` the body forms the masked scores `(q_t · k_tᵀ) ⊙ mask_t`, takes their
maximum over both axes, and folds it into a one-cell accumulator: the accumulator is reset to `-∞` at the first point,
and copied to the result at the last one. -/

/-- The offsets of a whole-block access: all zero. -/
theorem z2 : (![0, 0] : Fin 2 → ℕ) = fun _ => 0 := by funext a; fin_cases a <;> rfl
theorem z3 : (![0, 0, 0] : Fin 3 → ℕ) = fun _ => 0 := by funext a; fin_cases a <;> rfl

/-- The body's first branch is taken exactly at the first batch entry, -/
abbrev firstPt (i : grid0.Coords) : Prop := (Scalar.cmpi .ne (Scalar.extui (Scalar.cmpi .eq (BitVec.ofNat 32 (i 0).val) 0#32)) 0#32) = 1#1
theorem firstPt_iff : ∀ t : Fin cfg0.N, firstPt (grid0.coords t) ↔ t.val = 0 :=
  (by decide +kernel : ∀ t : Fin grid0.N, firstPt (grid0.coords t) ↔ t.val = 0)
/-- and its last branch exactly at the last one. -/
abbrev lastPt (i : grid0.Coords) : Prop := k0_cond2 i = 1#1
theorem lastPt_iff : ∀ t : Fin cfg0.N, lastPt (grid0.coords t) ↔ t.val = 63 :=
  (by decide +kernel : ∀ t : Fin grid0.N, lastPt (grid0.coords t) ↔ t.val = 63)

/-- The inputs are read at every point; the result cell is written only at the last point, and only then written back. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬lastPt (grid0.coords t) → cfg0.idle 3 (grid0.coords t) = true := by decide +kernel
theorem noFlush0_3 : ∀ t : Fin cfg0.N, ¬lastPt (grid0.coords t) → (cfg0.win 3).flush t = false := by decide +kernel
theorem live0_3 : ∀ t : Fin cfg0.N, lastPt (grid0.coords t) → cfg0.idle 3 (grid0.coords t) = false := by decide +kernel

/-! ## The body, case by case -/

set_option maxHeartbeats 1000000 in
/-- At the first point the accumulator, whatever it held, ends at the maximum of `-∞` and this entry's scores. -/
theorem body_first (c : Dev nD) (E : Set ℕ) (i : grid0.Coords) (h1 : firstPt i) (h2 : ¬ lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (k0_pay2 x0 x1 x2 (k0_pay1 (F := F)))) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩),
    View.canon_cons_unit_zero (S := S1x1) z2,
    View.readCov_unit_zero (S := S1x1) _ z2]
  simp only [View.readAt_eq_ld, View.ld_unit_zero (S := S1x1024x128) z3, View.ld_unit_zero (S := S1x1024x1024) z3, View.ld_unit_zero (S := S1x1) z2]

set_option maxHeartbeats 1000000 in
/-- At a point that is neither first nor last the accumulator `s` ends at the maximum of `s` and this entry's scores. -/
theorem body_mid (c : Dev nD) (E : Set ℕ) (i : grid0.Coords) (h1 : ¬ firstPt i) (h2 : ¬ lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (s : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg5 fullShare (k0_pay2 x0 x1 x2 s)) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩), View.canon_unit_zero (S := S1x1) z2]
  simp only [View.readAt_eq_ld, View.ld_unit_zero (S := S1x1024x128) z3, View.ld_unit_zero (S := S1x1024x1024) z3, View.ld_unit_zero (S := S1x1) z2]

set_option maxHeartbeats 1000000 in
/-- At the last point the accumulator is updated the same way and its new value is also stored to the result cell. -/
theorem body_last (c : Dev nD) (E : Set ℕ) (i : grid0.Coords) (h1 : ¬ firstPt i) (h2 : lastPt i)
    (arg1 : Memref sig .tc .vmem S1x1024x128 .f32) (harg1 : arg1.IsWhole) (arg2 : Memref sig .tc .vmem S1x1024x128 .f32) (harg2 : arg2.IsWhole)
    (arg3 : Memref sig .tc .vmem S1x1024x1024 .f32) (harg3 : arg3.IsWhole) (arg4 : Memref sig .tc .vmem S1x1 .f32) (harg4 : arg4.IsWhole)
    (arg5 : Memref sig .tc .vmem S1x1 .f32) (harg5 : arg5.IsWhole)
    (x0 : Vec F S1x1024x128 .f32) (x1 : Vec F S1x1024x128 .f32) (x2 : Vec F S1x1024x1024 .f32) (s : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2 s)
            ∗ owns (c : Thread nD τ) arg5 fullShare (k0_pay2 x0 x1 x2 s)) -∗ K ⟨⟩))
      ⊢ wp frame (wpE (defs₀ (F := F)) Variants.none c none) E (cc0__global_max_kernel i arg1 harg1 arg2 harg2 arg3 harg3 arg4 harg4 arg5 harg5) K := by
  simp only [cc0__global_max_kernel_eq_skeleton]; unfold cc0__global_max_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero (S := S1x1) z2 Facts₀.inb_S1x1_S1x1_0_0 y⟩), View.canon_unit_zero (S := S1x1) z2,
      View.readCov_unit_zero (S := S1x1) _ z2]
    simp only [View.readAt_eq_ld, View.ld_unit_zero (S := S1x1024x128) z3, View.ld_unit_zero (S := S1x1024x1024) z3, View.ld_unit_zero (S := S1x1) z2]
  iexists _; isplitr
  swap; · iexact HS
  ipureintro
  sl_unfold_words
  rw [View.read_writes_eq_canon _ _ _ (fun y => ⟨_, List.mem_cons_self, View.mem_set_unit_zero (S := S1x1) z2 Facts₀.inb_S1x1_S1x1_0_0 y⟩), View.canon_unit_zero (S := S1x1) z2]
  simp only [View.readAt_eq_ld, View.ld_unit_zero (S := S1x1024x128) z3, View.ld_unit_zero (S := S1x1024x1024) z3, View.ld_unit_zero (S := S1x1) z2]

/-! ## The pass over the grid, at the contents `V` it is entered from -/

section Pass
variable (V : (c : Dev nD) → (b : Ref sig .tc) → Buf (Elt F) ((c : Thread nD τ).loc b))

/-- Window `w`'s block at point `t`: batch entry `t` of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- THE RUNNING MAXIMUM: the accumulator after point `n` — the maximum of `-∞` and the scores of the entries `0 … n`,
    folded one entry at a time. -/
def runMax (c : Dev nD) : (n : ℕ) → n < cfg0.N → Vec F S1x1 .f32
  | 0, hn => k0_pay2 (blk0 V c 0 ⟨0, hn⟩) (blk0 V c 1 ⟨0, hn⟩) (blk0 V c 2 ⟨0, hn⟩) (k0_pay1 (F := F))
  | n + 1, hn => k0_pay2 (blk0 V c 0 ⟨n + 1, hn⟩) (blk0 V c 1 ⟨n + 1, hn⟩) (blk0 V c 2 ⟨n + 1, hn⟩) (runMax c n (Nat.lt_of_succ_lt hn))

theorem runMax_first (c : Dev nD) (t : Fin cfg0.N) (hz : t.val = 0) :
    runMax V c t.val t.isLt = k0_pay2 (blk0 V c 0 t) (blk0 V c 1 t) (blk0 V c 2 t) (k0_pay1 (F := F)) := by
  obtain ⟨n, hn⟩ := t
  cases n with
  | zero => rfl
  | succ n => exact absurd hz (Nat.succ_ne_zero n)

theorem runMax_later (c : Dev nD) (t : Fin cfg0.N) (hz : t.val ≠ 0) :
    runMax V c t.val t.isLt = k0_pay2 (blk0 V c 0 t) (blk0 V c 1 t) (blk0 V c 2 t)
      (runMax V c (t.val - 1) (Nat.lt_of_le_of_lt (Nat.sub_le _ _) t.isLt)) := by
  obtain ⟨n, hn⟩ := t
  cases n with
  | zero => exact absurd rfl hz
  | succ n => rfl

/-- The accumulator cell, -/
abbrev accCell : Memref sig .tc .vmem S1x1 .f32 := Memref.whole cc0_scratch0
/-- and the other scoped buffers of the core (the second pass's), which this pass never touches, each at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the pass may use beside its windows, before its first point: the accumulator and the other scoped buffers at
    anything, and the generator register. -/
theorem PhiA0_eq (c : Dev nD) :
    (Pipeline.ΦA spec0 c : sProp 𝕄)
      = iprop(((∃ d, owns (c : Thread nD τ) accCell fullShare d) ∗ otherScoped0 (F := F) c) ∗ (∃ r, prngReg c r)) := by
  unfold Pipeline.ΦA otherScoped0; rw [scopedRest0_eq]; simp only [accCell, owns_whole]; rfl

/-- The invariant before position `n`: at the start nothing is known of the accumulator; afterwards it holds the
    running maximum of the points before. -/
def PhiS (c : Dev nD) : (n : ℕ) → n ≤ cfg0.N → sProp 𝕄
  | 0, _ => Pipeline.ΦA spec0 c
  | n + 1, hn => iprop((owns (c : Thread nD τ) accCell fullShare (runMax V c n hn) ∗ otherScoped0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) accCell fullShare (runMax V c n hn) ∗ otherScoped0 (F := F) c) ∗ (∃ r, prngReg c r)) := rfl
theorem PhiS_pos (c : Dev nD) (n : ℕ) (h : n ≤ cfg0.N) (hz : n ≠ 0) :
    PhiS V c n h = iprop((owns (c : Thread nD τ) accCell fullShare (runMax V c (n - 1) (by omega)) ∗ otherScoped0 (F := F) c) ∗ (∃ r, prngReg c r)) := by
  cases n with
  | zero => exact absurd rfl hz
  | succ n => rfl

/-- The pass's proof data: each input's buffer keeps its block; the result cell, where it is written, holds the running
    maximum; the invariant is `PhiS`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => runMax V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = runMax V c t.val t.isLt := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which case the point is in is read off its position; the invariant hands the body the
    accumulator at the running maximum of the points before (at anything, at the first point) and takes it back one
    entry further. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 64 := lt_of_lt_of_eq t.isLt (show cfg0.N = 64 from N_0)
  by_cases hz : t.val = 0
  · have h1 : firstPt (grid0.coords t) := (firstPt_iff t).mpr hz
    have h2 : ¬ lastPt (grid0.coords t) := fun h => by have := (lastPt_iff t).mp h; omega
    rw [Dat.leavesExact_idle (dat0 V c) 3 t (idle0_3 t h2) (noFlush0_3 t h2)]
    rw [runMax_first V c t hz]
    rw [PhiS_castSucc V c t, PhiS_zero V c _ _ hz, PhiA0_eq]
    iintro ⟨⟨⟨HS, HR⟩, Hg⟩, Ho, ⟨%d0, H0⟩, ⟨%d1, H1⟩, ⟨%d2, H2⟩, H3⟩
    iapply (body_first c Set.univ (grid0.coords t) h1 h2 _ _ _ _ _ _ _ _ _ _ (blk0 V c 0 t) (blk0 V c 1 t) (blk0 V c 2 t) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · have h1 : ¬ firstPt (grid0.coords t) := fun h => hz ((firstPt_iff t).mp h)
    rw [runMax_later V c t hz]
    rw [PhiS_castSucc V c t, PhiS_pos V c _ _ hz]
    by_cases hl : t.val = 63
    · have h2 : lastPt (grid0.coords t) := (lastPt_iff t).mpr hl
      rw [show (dat0 V c).leavesExact 3 t = owns (c : Thread nD τ) (st0_3 t) fullShare ((dat0 V c).after 3 t) from by
        unfold Dat.leavesExact; rw [live0_3 t h2], after0_3, runMax_later V c t hz]
      iintro ⟨⟨⟨HS, HR⟩, Hg⟩, Ho, ⟨%d0, H0⟩, ⟨%d1, H1⟩, ⟨%d2, H2⟩, ⟨%d3, H3⟩⟩
      iapply (body_last c Set.univ (grid0.coords t) h1 h2 _ _ _ _ _ _ _ _ _ _ (blk0 V c 0 t) (blk0 V c 1 t) (blk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have h2 : ¬ lastPt (grid0.coords t) := fun h => hl ((lastPt_iff t).mp h)
      rw [Dat.leavesExact_idle (dat0 V c) 3 t (idle0_3 t h2) (noFlush0_3 t h2)]
      iintro ⟨⟨⟨HS, HR⟩, Hg⟩, Ho, ⟨%d0, H0⟩, ⟨%d1, H1⟩, ⟨%d2, H2⟩, H3⟩
      iapply (body_mid c Set.univ (grid0.coords t) h1 h2 _ _ _ _ _ _ _ _ _ _ (blk0 V c 0 t) (blk0 V c 1 t) (blk0 V c 2 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

theorem body_obligation0 (c : Dev nD) : BodyObligation (dat0 (F := F) V c) (defs₀ (F := F)) Variants.none () Set.univ := fun t => by
  rw [bigSep_W0, bigSep_W0]
  exact sound_body0 V c t

/-- What the pass is handed beside its windows is the invariant before its first point, -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after its last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

end Pass

end Cert.KernelIdeal.Hand

end
-- ==== Proof.IdealAttnPass.lean ====
import proofs.«147856_j76587856823055_1_alg».proof.Proof.Gen.KernelIdeal.Launch
import proofs.«147856_j76587856823055_1_alg».proof.Proof.Gen.KernelIdeal.Skeleton
import proofs.«147856_j76587856823055_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass: the normalised weights applied to the values

One grid point per batch entry and half of the query rows. At a point the body forms the masked scores of its query
rows against all keys, subtracts the given maximum, exponentiates, masks again, divides each row by its sum plus a
small constant, and multiplies by the values. Every point is independent of the others. -/

theorem y2 : (![0, 0] : Fin 2 → ℕ) = fun _ => 0 := by funext a; fin_cases a <;> rfl
theorem y3 : (![0, 0, 0] : Fin 3 → ℕ) = fun _ => 0 := by funext a; fin_cases a <;> rfl

set_option maxHeartbeats 1000000 in
/-- The body on whole staging buffers: the inputs are left as found and the output block ends at the body's one stored
    value, a function of the five input blocks. -/
theorem body_attn (c : Dev nD) (E : Set ℕ) (i : grid1.Coords)
    (arg2 : Memref sig .tc .vmem S1x512x128 .f32) (harg2 : arg2.IsWhole) (arg3 : Memref sig .tc .vmem S1x1024x128 .f32) (harg3 : arg3.IsWhole)
    (arg4 : Memref sig .tc .vmem S1x1024x128 .f32) (harg4 : arg4.IsWhole) (arg5 : Memref sig .tc .vmem S1x512x1024 .f32) (harg5 : arg5.IsWhole)
    (arg6 : Memref sig .tc .vmem S1x1 .f32) (harg6 : arg6.IsWhole) (arg7 : Memref sig .tc .vmem S1x512x128 .f32) (harg7 : arg7.IsWhole)
    (x0 : Vec F S1x512x128 .f32) (x1 : Vec F S1x1024x128 .f32) (x2 : Vec F S1x1024x128 .f32) (x3 : Vec F S1x512x1024 .f32) (x4 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x2 x3 x4)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self, View.mem_set_unit_zero (S := S1x512x128) y3 Facts₀.inb_S1x512x128_S1x512x128_0_0_0 y⟩), View.canon_unit_zero (S := S1x512x128) y3]
  simp only [View.readAt_eq_ld, View.ld_unit_zero (S := S1x512x128) y3, View.ld_unit_zero (S := S1x1024x128) y3,
    View.ld_unit_zero (S := S1x512x1024) y3, View.ld_unit_zero (S := S1x1) y2]

/-! ## The pass over the grid, at the contents `V` it is entered from -/

section Pass
variable (V : (c : Dev nD) → (b : Ref sig .tc) → Buf (Elt F) ((c : Thread nD τ).loc b))

/-- Window `w`'s block at point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether or not it was fetched there: a block not fetched
    again (the keys, the values, the maximum) has not moved. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- What point `t` stores in the output block: the body's value of the point's input blocks. -/
def outBlk (c : Dev nD) (t : Fin cfg1.N) : Vec F S1x512x128 .f32 :=
  k1_pay1 (blk1 V c 0 t) (blk1 V c 1 t) (blk1 V c 2 t) (blk1 V c 3 t) (blk1 V c 4 t)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outBlk V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_attn c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Pass

end Cert.KernelIdeal.Hand

end
-- ==== Proof.IdealRun.lean ====
import proofs.«147856_j76587856823055_1_alg».proof.Proof.Gen.KernelIdeal.Launch
import proofs.«147856_j76587856823055_1_alg».proof.Proof.Gen.KernelIdeal.Skeleton
import proofs.«147856_j76587856823055_1_alg».proof.Proof.Gen.KernelIdeal.Points
import proofs.«147856_j76587856823055_1_alg».proof.Proof.IdealMaxPass
import proofs.«147856_j76587856823055_1_alg».proof.Proof.IdealAttnPass
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The two passes in sequence

The program is the first pass followed by the second, with no host operation between them. The contents of the core's
buffers are followed from the launch through both passes: each pass leaves its inputs as it found them and its result
at what its write-backs leave, so at the end the arguments are as launched, the one-cell buffer holds the first pass's
result and the result array the second pass's. -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- after the first pass (its arrays at what its write-backs leave, every other buffer as before), -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- and after the second. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: each pass only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- The result array ends at what the second pass's write-backs leave. -/
theorem W2_main_v1 (c : Dev nD) : W2 m ρ c (Proc.devRef .tc main_v1) = (dat1 (V1 m ρ) c).arrAt 5 cfg1.N := W2_arr m ρ c 5
/-- The second pass finds the one-cell buffer at what the first pass's write-back left, and the arguments as launched. -/
theorem V1_main_v0 (c : Dev nD) : V1 m ρ c main_v0 = (dat0 (V0 m ρ) c).arrAt 3 cfg0.N := W1_arr m ρ c 3
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_main_arg2 (c : Dev nD) : V1 m ρ c main_arg2 = m ((c : Thread nD τ).loc main_arg2) :=
  W1_of_ne m ρ c main_arg2 (by decide)
theorem V1_main_arg3 (c : Dev nD) : V1 m ρ c main_arg3 = m ((c : Thread nD τ).loc main_arg3) :=
  (W1_arr m ρ c 2).trans (((dat0 (V0 m ρ) c).arrAt_in 2 rfl _).trans (A_eq0 (V0 m ρ) c 2))

/-! ## The passes as segments of the program -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P
        ∗ Pipeline.scopedRest (Ix := Unit) (Name := ℕ) (U := UR sig nD τ) (Lvl := ℕ) (Val := Elt F) spec0 c) ⊢ Pipeline.ΦA spec0 c := by
      intro P
      unfold Pipeline.ΦA
      iintro ⟨Hp, -, Hr⟩
      isplitl [Hr]; · iexact Hr
      iexact Hp
    exact (h _).trans (hin0 (V0 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and every unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Hand

end
-- ==== Proof.AttnSpec.lean ====
import Idealize.ShloMosaic.PureOps
import Idealize.ShloMosaic.PureOps.Ideal.Laws
import Idealize.ShloMosaic.Lib.ValueIdx
import Idealize.ShloMosaic.Lib.Pipeline.Value

/-!
  The function both programs compute, on the extended reals.

  For queries, keys and values `Q, K, V : [64, 1024, 128]` and a multiplicative mask `M : [64, 1024, 1024]`:
  the masked score of query row `q` against key row `k` in batch entry `b` is `(∑ⱼ Q b q j · K b k j) · M b q k`;
  with `g` the greatest score over all of `b, q, k` (starting from `-∞`), the weight is `exp (score - g) · M b q k`;
  every row of weights is divided by its sum plus a small constant, and the result is the weighted sum of the value
  rows. The greatest score enters only through its upper bounds, which is how the two ways of folding it are compared.
-/

noncomputable section

open scoped BigOperators

namespace Cert.AttnSpec

open Idealize.ShloMosaic Idealize.ShloMosaic.ValueIdx

abbrev QKV : Shape := ⟨3, ![64, 1024, 128]⟩
abbrev MSK : Shape := ⟨3, ![64, 1024, 1024]⟩

/-- The value of the word of `-∞`, and of the small constant added to every row sum. -/
abbrev negInf : EReal := Ideal.ofBits .f32 0xFF800000#32
abbrev tiny : EReal := Ideal.ofBits .f32 0x26901D7D#32

/-- The masked score. -/
def score (Q K : QKV.Idx → EReal) (M : MSK.Idx → EReal) (b : Fin 64) (q k : Fin 1024) : EReal :=
  (∑ j : Fin 128, Q (ix3 b q j) * K (ix3 b k j)) * M (ix3 b q k)

/-- The weight of key `k` for query `q`, given the subtracted constant `g`. -/
def weight (Q K : QKV.Idx → EReal) (M : MSK.Idx → EReal) (g : EReal) (b : Fin 64) (q k : Fin 1024) : EReal :=
  Ideal.exp (score Q K M b q k - g) * M (ix3 b q k)

/-- The result at `(b, q, d)`. -/
def attnAt (Q K V : QKV.Idx → EReal) (M : MSK.Idx → EReal) (g : EReal) (b : Fin 64) (q : Fin 1024) (d : Fin 128) : EReal :=
  ∑ k : Fin 1024, Ideal.div (weight Q K M g b q k) ((∑ k' : Fin 1024, weight Q K M g b q k') + tiny) * V (ix3 b k d)

def attn (Q K V : QKV.Idx → EReal) (M : MSK.Idx → EReal) (g : EReal) : QKV.Idx → EReal :=
  fun i => attnAt Q K V M g (i 0) (i 1) (i 2)

theorem attn_apply (Q K V : QKV.Idx → EReal) (M : MSK.Idx → EReal) (g : EReal) (b : Fin 64) (q : Fin 1024) (d : Fin 128) :
    attn Q K V M g (ix3 b q d) = attnAt Q K V M g b q d := rfl

/-- `g` is the greatest of `-∞` and the scores of the batch entries `b ≤ n`: its upper bounds are exactly theirs. -/
def TopUpTo (Q K : QKV.Idx → EReal) (M : MSK.Idx → EReal) (n : ℕ) (g : EReal) : Prop :=
  ∀ x : EReal, g ≤ x ↔ negInf ≤ x ∧ ∀ b : Fin 64, b.val ≤ n → ∀ q k : Fin 1024, score Q K M b q k ≤ x

/-- The same over every batch entry. -/
def Top (Q K : QKV.Idx → EReal) (M : MSK.Idx → EReal) (g : EReal) : Prop :=
  ∀ x : EReal, g ≤ x ↔ negInf ≤ x ∧ ∀ (b : Fin 64) (q k : Fin 1024), score Q K M b q k ≤ x

theorem top_of_upTo {Q K : QKV.Idx → EReal} {M : MSK.Idx → EReal} {g : EReal} (h : TopUpTo Q K M 63 g) : Top Q K M g :=
  fun x => (h x).trans ⟨fun ⟨h0, h1⟩ => ⟨h0, fun b q k => h1 b (by have := b.isLt; omega) q k⟩,
    fun ⟨h0, h1⟩ => ⟨h0, fun b _ q k => h1 b q k⟩⟩

/-- Two values with the same upper bounds are equal. -/
theorem top_unique {Q K : QKV.Idx → EReal} {M : MSK.Idx → EReal} {g g' : EReal} (h : Top Q K M g) (h' : Top Q K M g') : g = g' :=
  le_antisymm ((h g').mpr ((h' g').mp le_rfl)) ((h' g).mpr ((h g).mp le_rfl))

/-- The maximum, from `z`, of the row maxima (each from `z`) of a finite matrix: its upper bounds are those of `z` and of every entry. -/
theorem fold_fold_max_le {ι κ : Type} [Fintype ι] [Fintype κ] (z : EReal) (S : ι → κ → EReal) (x : EReal) :
    (Finset.univ : Finset ι).fold max z (fun p => (Finset.univ : Finset κ).fold max z (fun k => S p k)) ≤ x
      ↔ z ≤ x ∧ ∀ p k, S p k ≤ x := by
  rw [Finset.fold_max_le]
  constructor
  · rintro ⟨hz, h⟩
    exact ⟨hz, fun p k => ((Finset.fold_max_le x).mp (h p (Finset.mem_univ p))).2 k (Finset.mem_univ k)⟩
  · rintro ⟨hz, h⟩
    exact ⟨hz, fun p _ => (Finset.fold_max_le x).mpr ⟨hz, fun k _ => h p k⟩⟩

end Cert.AttnSpec

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.IdealMaxValue.lean ====
import proofs.«147856_j76587856823055_1_alg».proof.Proof.IdealMaxPass
import proofs.«147856_j76587856823055_1_alg».proof.Proof.AttnSpec
import proofs.«147856_j76587856823055_1_alg».proof.Proof.LibRowSoftmax
import Idealize.ShloMosaic.PureOps.Ideal.Laws
import Idealize.ShloMosaic.Lib.ValueIdx
import Idealize.ShloMosaic.Lib.ValueLayout
import Idealize.ShloMosaic.Lib.Pipeline.Value

/-!
  What the first pass leaves, on the extended reals: the accumulator after the batch entries `0 … n` has exactly the
  upper bounds of `-∞` and of those entries' masked scores, and the one-cell result is the accumulator after the last entry.
-/

noncomputable section

open scoped BigOperators

namespace Cert.KernelIdeal.MaxValue

open Cert.KernelIdeal Cert.KernelIdeal.Gen Cert.KernelIdeal.Hand Idealize.ShloMosaic Idealize.ShloMosaic.ValueIdx
open Cert.AttnSpec Cert.RowSoftmax Idealize.ShloMosaic.TcCoe Idealize.SL.Sem
open Idealize.ShloMosaic.Pipeline (Dat)

/-! ## One batch entry -/

/-- The masked scores of one batch entry's blocks. -/
def tileScore (x0 x1 : Vec Ideal S1x1024x128 .f32) (x2 : Vec Ideal S1x1024x1024 .f32) (p k : Fin 1024) : EReal :=
  (∑ j : Fin 128, x0 (ix3 (0 : Fin 1) p j) * x1 (ix3 (0 : Fin 1) k j)) * x2 (ix3 (0 : Fin 1) p k)

/-- The product of the queries with the transposed keys, masked, read at `(p, k)`. -/
theorem masked_scores_apply (x0 x1 : Vec Ideal S1x1024x128 .f32) (x2 : Vec Ideal S1x1024x1024 .f32) (p k : Fin 1024) :
    mulf (F := Ideal) (matmul (F := Ideal) dot_S1024x128_S128x1024_S1024x1024_1_0_0_1_n_n none
        (truncf (F := Ideal) .bf16 (shapeCast S1024x128 x0 Facts₀.shapeCasts_S1x1024x128_S1024x128) Facts₀.bitsLt_bf16_f32)
        (transpose S128x1024 [1, 0] (truncf (F := Ideal) .bf16 (shapeCast S1024x128 x1 Facts₀.shapeCasts_S1x1024x128_S1024x128) Facts₀.bitsLt_bf16_f32)
          Facts₀.transposes_S1024x128_p1_0_S128x1024)
        (constant (F := Ideal) S1024x1024 .f32 0x00000000#32))
      (shapeCast S1024x1024 x2 Facts₀.shapeCasts_S1x1024x1024_S1024x1024) (ix2 p k) = tileScore x0 x1 x2 p k := by
  rw [mulf_apply]
  unfold tileScore
  refine congrArg₂ (· * ·) ?_ (shapeCast_1ab_ab_apply x2 _ p k)
  refine (matmul_rows_cols_apply dot_S1024x128_S128x1024_S1024x1024_1_0_0_1_n_n rfl rfl rfl rfl
    (fun i q => by
      unfold DotDims.lhsIdx
      rw [dif_neg (show ¬(0 : Fin S1024x128.rank) ∈ dot_S1024x128_S128x1024_S1024x1024_1_0_0_1_n_n.lhsBatch by decide),
        dif_pos (show (0 : Fin S1024x128.rank) ∈ dot_S1024x128_S128x1024_S1024x1024_1_0_0_1_n_n.lhsNonContracting by decide)]
      rfl)
    (fun i q => by
      unfold DotDims.rhsIdx
      rw [dif_neg (show ¬(1 : Fin S128x1024.rank) ∈ dot_S1024x128_S128x1024_S1024x1024_1_0_0_1_n_n.rhsBatch by decide),
        dif_pos (show (1 : Fin S128x1024.rank) ∈ dot_S1024x128_S128x1024_S1024x1024_1_0_0_1_n_n.rhsNonContracting by decide)]
      rfl)
    none _ _ p k).trans ?_
  refine Finset.sum_congr rfl fun j _ => ?_
  refine congrArg₂ (· * ·) (shapeCast_1ab_ab_apply x0 _ p j) ?_
  exact (transpose_ix2_apply _ _ j k).trans (shapeCast_1ab_ab_apply x1 _ k j)

/-- Row `p` of a column `[n, 1]` with the row coordinate put back. -/
theorem col_lift {n : ℕ} (h : (⟨2, ![n, 1]⟩ : Shape).Reduces [0] (⟨1, ![1]⟩ : Shape)) (u : Fin 1)
    (k : Fin ((⟨2, ![n, 1]⟩ : Shape).size 0)) : h.lift (ix1 u) k = ix2 (⟨k.val, k.isLt⟩ : Fin n) (0 : Fin 1) := by
  funext c; apply Fin.ext
  fin_cases c
  · rfl
  · show (h.lift (ix1 u) k 1).val = 0
    have h1 : (h.lift (ix1 u) k 1).val < 1 := (h.lift (ix1 u) k 1).isLt
    omega

/-- The maximum along each row of a matrix, and down a column, from the accumulator word's value. -/
theorem rowMax_apply {a n : ℕ} (s : FVec Ideal ⟨2, ![a, n]⟩ .f32) (acc : BitVec 32)
    (hr : (⟨2, ![a, n]⟩ : Shape).Reduces [1] (⟨1, ![a]⟩ : Shape)) (hφ : FKind.Formats .f32)
    (hacc : acc = FKind.maximumf.neutral .f32 hφ) (p : Fin a) :
    multiReduction .maximumf [1] ⟨1, ![a]⟩ s acc hr hφ hacc (ix1 p)
      = (Finset.univ : Finset (Fin n)).fold max (Ideal.ofBits .f32 acc) (fun k => s (ix2 p k)) :=
  (Ideal.multiReduction_maximumf_single s _ hr hφ hacc (ix1 p)).trans
    (congrArg (fun f => (Finset.univ : Finset (Fin n)).fold max (Ideal.ofBits .f32 acc) f)
      (funext fun k => congrArg s (row_lift hr p k)))

theorem colMax_apply {n : ℕ} (v : FVec Ideal ⟨2, ![n, 1]⟩ .f32) (acc : BitVec 32)
    (hr : (⟨2, ![n, 1]⟩ : Shape).Reduces [0] (⟨1, ![1]⟩ : Shape)) (hφ : FKind.Formats .f32)
    (hacc : acc = FKind.maximumf.neutral .f32 hφ) (u : Fin 1) :
    multiReduction .maximumf [0] ⟨1, ![1]⟩ v acc hr hφ hacc (ix1 u)
      = (Finset.univ : Finset (Fin n)).fold max (Ideal.ofBits .f32 acc) (fun p => v (ix2 p (0 : Fin 1))) :=
  (Ideal.multiReduction_maximumf_single v _ hr hφ hacc (ix1 u)).trans
    (congrArg (fun f => (Finset.univ : Finset (Fin n)).fold max (Ideal.ofBits .f32 acc) f)
      (funext fun k => congrArg v (col_lift hr u k)))

/-- The seed of the accumulator is `-∞`. -/
theorem seed_apply (i : S1x1.Idx) : k0_pay1 (F := Ideal) i = negInf := by
  unfold k0_pay1
  rw [shapeCast_self]
  rfl

set_option maxRecDepth 65536 in
/-- ONE STEP OF THE FOLD: the body's stored value is the maximum of the accumulator it was handed and, from `-∞`, of the
    row maxima (each from `-∞`) of the entry's masked scores. -/
theorem step_apply (x0 x1 : Vec Ideal S1x1024x128 .f32) (x2 : Vec Ideal S1x1024x1024 .f32) (s : Vec Ideal S1x1 .f32) (i : S1x1.Idx) :
    k0_pay2 x0 x1 x2 s i
      = max (s i) ((Finset.univ : Finset (Fin 1024)).fold max negInf fun p =>
          (Finset.univ : Finset (Fin 1024)).fold max negInf fun k => tileScore x0 x1 x2 p k) := by
  obtain ⟨u, v, rfl⟩ : ∃ (u v : Fin 1), i = ix2 u v := ⟨i 0, i 1, eq_ix2 i⟩
  unfold k0_pay2
  rw [shapeCast_self, maximumf_apply]
  refine congrArg (max (s (ix2 u v))) ?_
  refine (column_apply _ _ u v).trans ?_
  refine (colMax_apply _ _ _ _ _ u).trans ?_
  refine congrArg (fun f => (Finset.univ : Finset (Fin 1024)).fold max negInf f) (funext fun p => ?_)
  refine (column_apply _ _ p 0).trans ?_
  refine (rowMax_apply _ _ _ _ _ p).trans ?_
  refine congrArg (fun f => (Finset.univ : Finset (Fin 1024)).fold max negInf f) (funext fun k => ?_)
  exact masked_scores_apply x0 x1 x2 p k

/-! ## The pass over the grid -/

section Pass
variable (V : (c : Dev nD) → (b : Ref sig .tc) → Buf (Elt Ideal) ((c : Thread nD τ).loc b))

/-- The batch entry a grid point works on. -/
def entry (t : Fin cfg0.N) : Fin 64 := ⟨t.val, lt_of_lt_of_eq t.isLt N_0⟩

/-- The printed index maps over the grid: each input window's block is batch entry `t`, whole; the result's is the one cell. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0) :=
  (by decide +kernel : ∀ t : Fin grid0.N, _)

/-- The blocks read where the arrays hold batch entry `t`. -/
theorem blk0_q (c : Dev nD) (t : Fin cfg0.N) (p : Fin 1024) (j : Fin 128) :
    blk0 V c 0 t (ix3 (0 : Fin 1) p j) = V c main_arg0 (ix3 (entry t) p j) := by
  unfold blk0
  show V c main_arg0 (((cfg0.win 0).blk t).view.emb (ix3 (0 : Fin 1) p j)) = _
  refine congrArg (V c main_arg0) (funext fun a => Fin.ext ?_)
  obtain ⟨⟨e0, e1, e2⟩, -, -, -⟩ := idx_facts0 t
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 128 + 1 * j.val = j.val; omega

theorem blk0_k (c : Dev nD) (t : Fin cfg0.N) (p : Fin 1024) (j : Fin 128) :
    blk0 V c 1 t (ix3 (0 : Fin 1) p j) = V c main_arg1 (ix3 (entry t) p j) := by
  unfold blk0
  show V c main_arg1 (((cfg0.win 1).blk t).view.emb (ix3 (0 : Fin 1) p j)) = _
  refine congrArg (V c main_arg1) (funext fun a => Fin.ext ?_)
  obtain ⟨-, ⟨e0, e1, e2⟩, -, -⟩ := idx_facts0 t
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 128 + 1 * j.val = j.val; omega

theorem blk0_m (c : Dev nD) (t : Fin cfg0.N) (p k : Fin 1024) :
    blk0 V c 2 t (ix3 (0 : Fin 1) p k) = V c main_arg3 (ix3 (entry t) p k) := by
  unfold blk0
  show V c main_arg3 (((cfg0.win 2).blk t).view.emb (ix3 (0 : Fin 1) p k)) = _
  refine congrArg (V c main_arg3) (funext fun a => Fin.ext ?_)
  obtain ⟨-, -, ⟨e0, e1, e2⟩, -⟩ := idx_facts0 t
  match a with
  | ⟨0, _⟩ => show win0_2.index t (0 : Fin 3) * 1 + 1 * 0 = t.val; omega
  | ⟨1, _⟩ => show win0_2.index t (1 : Fin 3) * 1024 + 1 * p.val = p.val; omega
  | ⟨2, _⟩ => show win0_2.index t (2 : Fin 3) * 1024 + 1 * k.val = k.val; omega

/-- So the scores of point `t`'s blocks are the scores of batch entry `t`. -/
theorem tile_eq (c : Dev nD) (t : Fin cfg0.N) (p k : Fin 1024) :
    tileScore (blk0 V c 0 t) (blk0 V c 1 t) (blk0 V c 2 t) p k
      = score (V c main_arg0) (V c main_arg1) (V c main_arg3) (entry t) p k := by
  unfold tileScore score
  rw [blk0_m]
  refine congrArg (· * _) (Finset.sum_congr rfl fun j _ => ?_)
  rw [blk0_q, blk0_k]

/-- THE ACCUMULATOR after the entries `0 … n`: its upper bounds are those of `-∞` and of those entries' scores. -/
theorem runMax_top (c : Dev nD) : ∀ (n : ℕ) (hn : n < cfg0.N) (i : S1x1.Idx),
    TopUpTo (V c main_arg0) (V c main_arg1) (V c main_arg3) n (runMax V c n hn i)
  | 0, hn, i => by
    intro x
    rw [show runMax V c 0 hn = k0_pay2 (blk0 V c 0 ⟨0, hn⟩) (blk0 V c 1 ⟨0, hn⟩) (blk0 V c 2 ⟨0, hn⟩) (k0_pay1 (F := Ideal)) from rfl,
      step_apply, seed_apply, max_le_iff, fold_fold_max_le]
    simp only [tile_eq]
    constructor
    · rintro ⟨h0, -, h⟩
      refine ⟨h0, fun b hb q k => ?_⟩
      have hb0 : b = entry ⟨0, hn⟩ := Fin.ext (by show b.val = 0; omega)
      rw [hb0]; exact h q k
    · rintro ⟨h0, h⟩
      exact ⟨h0, h0, fun p k => h (entry ⟨0, hn⟩) (Nat.le_refl 0) p k⟩
  | n + 1, hn, i => by
    intro x
    rw [show runMax V c (n + 1) hn = k0_pay2 (blk0 V c 0 ⟨n + 1, hn⟩) (blk0 V c 1 ⟨n + 1, hn⟩) (blk0 V c 2 ⟨n + 1, hn⟩)
        (runMax V c n (Nat.lt_of_succ_lt hn)) from rfl,
      step_apply, max_le_iff, runMax_top c n (Nat.lt_of_succ_lt hn) i x, fold_fold_max_le]
    simp only [tile_eq]
    constructor
    · rintro ⟨⟨h0, hprev⟩, -, h⟩
      refine ⟨h0, fun b hb q k => ?_⟩
      rcases Nat.lt_or_ge b.val (n + 1) with hlt | hge
      · exact hprev b (by omega) q k
      · have hb1 : b = entry ⟨n + 1, hn⟩ := Fin.ext (by show b.val = n + 1; omega)
        rw [hb1]; exact h q k
    · rintro ⟨h0, h⟩
      exact ⟨⟨h0, fun b hb q k => h b (by omega) q k⟩, h0, fun p k => h (entry ⟨n + 1, hn⟩) (Nat.le_refl (n + 1)) p k⟩

theorem last_lt : 63 < cfg0.N := lt_of_lt_of_eq (by decide : 63 < 64) N_0.symm

/-- THE RESULT CELL after the pass: the accumulator after the last entry. -/
theorem maxCell (c : Dev nD) : (dat0 V c).arrAt 3 cfg0.N = runMax V c 63 last_lt := by
  refine (dat0 V c).arrAt_eq_of_cover 3 (runMax V c 63 last_lt) (fun t hf => ?_) (fun i => ?_)
  · have h63 : t.val = 63 := by
      have h := (flush0_3 t).mp hf
      have hN : t.val < 64 := lt_of_lt_of_eq t.isLt N_0
      omega
    show (cfg0.win 3).cut (grid0.coords t) ((dat0 V c).after 3 t) = _
    rw [after0_3]
    obtain ⟨n, hn⟩ := t
    obtain rfl : n = 63 := h63
    funext y
    show runMax V c 63 hn y = runMax V c 63 last_lt (((cfg0.win 3).blk ⟨63, hn⟩).view.emb y)
    refine congrArg (runMax V c 63 hn) (funext fun a => Fin.ext ?_)
    obtain ⟨-, -, -, ⟨e0, e1⟩⟩ := idx_facts0 ⟨63, hn⟩
    match a with
    | ⟨0, _⟩ => show (y 0).val = win0_3.index ⟨63, hn⟩ (0 : Fin 2) * 1 + 1 * (y 0).val; omega
    | ⟨1, _⟩ => show (y 1).val = win0_3.index ⟨63, hn⟩ (1 : Fin 2) * 1 + 1 * (y 1).val; omega
  · refine ⟨⟨63, last_lt⟩, (flush0_3 _).mpr (by decide), ?_⟩
    show i ∈ ((View.whole main_v0).slice (win0_3.rect ⟨63, last_lt⟩)).set
    rw [View.set_slice_whole, Rect.mem_set_unit]
    obtain ⟨-, -, -, ⟨e0, e1⟩⟩ := idx_facts0 ⟨63, last_lt⟩
    intro a
    match a with
    | ⟨0, _⟩ =>
      show win0_3.index ⟨63, last_lt⟩ (0 : Fin 2) * 1 ≤ (i 0).val ∧ (i 0).val < win0_3.index ⟨63, last_lt⟩ (0 : Fin 2) * 1 + 1
      have : (i 0).val < 1 := (i 0).isLt
      omega
    | ⟨1, _⟩ =>
      show win0_3.index ⟨63, last_lt⟩ (1 : Fin 2) * 1 ≤ (i 1).val ∧ (i 1).val < win0_3.index ⟨63, last_lt⟩ (1 : Fin 2) * 1 + 1
      have : (i 1).val < 1 := (i 1).isLt
      omega

/-- So the one cell the second pass reads has exactly the upper bounds of `-∞` and of every score. -/
theorem maxCell_top (c : Dev nD) (i : S1x1.Idx) :
    Top (V c main_arg0) (V c main_arg1) (V c main_arg3) ((dat0 V c).arrAt 3 cfg0.N i) := by
  rw [maxCell]
  exact top_of_upTo (runMax_top V c 63 last_lt i)

end Pass

end Cert.KernelIdeal.MaxValue

end
-- ==== Proof.IdealAttnValue.lean ====
import proofs.«147856_j76587856823055_1_alg».proof.Proof.IdealAttnPass
import proofs.«147856_j76587856823055_1_alg».proof.Proof.AttnSpec
import proofs.«147856_j76587856823055_1_alg».proof.Proof.LibRowSoftmax
import Idealize.ShloMosaic.PureOps.Ideal.Laws
import Idealize.ShloMosaic.Lib.ValueIdx
import Idealize.ShloMosaic.Lib.ValueLayout
import Idealize.ShloMosaic.Lib.Pipeline.Value

/-!
  What the second pass leaves, on the extended reals: the result array is the specified function of the four argument
  arrays and of the one cell the pass is handed as the subtracted constant.
-/

noncomputable section

open scoped BigOperators

namespace Cert.KernelIdeal.AttnValue

open Cert.KernelIdeal Cert.KernelIdeal.Gen Cert.KernelIdeal.Hand Idealize.ShloMosaic Idealize.ShloMosaic.ValueIdx
open Cert.AttnSpec Cert.RowSoftmax Idealize.ShloMosaic.TcCoe Idealize.SL.Sem
open Idealize.ShloMosaic.Pipeline (Dat)

/-! ## One grid point -/

/-- Scores times a mask, less a one-cell constant, exponentiated, times the mask again: read at `(p, k)`. -/
theorem weights_apply {a n : ℕ} (s m : FVec Ideal ⟨2, ![a, n]⟩ .f32) (g : FVec Ideal ⟨2, ![1, 1]⟩ .f32)
    (hb : (⟨2, ![1, 1]⟩ : Shape).Broadcasts ⟨2, ![a, n]⟩) (p : Fin a) (k : Fin n) :
    mulf (exp (subf (mulf s m) (broadcastTo ⟨2, ![a, n]⟩ g hb))) m (ix2 p k)
      = Ideal.exp (s (ix2 p k) * m (ix2 p k) - g (ix2 (0 : Fin 1) (0 : Fin 1))) * m (ix2 p k) := by
  show Ideal.exp (s (ix2 p k) * m (ix2 p k) - broadcastTo ⟨2, ![a, n]⟩ g hb (ix2 p k)) * m (ix2 p k) = _
  rw [broadcastTo_apply g hb (ix2 p k) (ix2 (0 : Fin 1) (0 : Fin 1)) (fun ax => by
    match ax with | ⟨0, _⟩ => rfl | ⟨1, _⟩ => rfl)]

/-- Every row divided by its sum plus a splat constant: read at `(p, k)`. -/
theorem normalised_apply {a n : ℕ} (e : FVec Ideal ⟨2, ![a, n]⟩ .f32) (w : BitVec 32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (k : Fin n) :
    divf e (broadcastTo ⟨2, ![a, n]⟩
        (addf (shapeCast ⟨2, ![a, 1]⟩ (multiReduction .add [1] ⟨1, ![a]⟩ e 0x00000000#32 hr hφ hacc) hc)
          (broadcast ⟨2, ![a, 1]⟩ (Scalar.ofBits (F := Ideal) .f32 w))) hb) (ix2 p k)
      = Ideal.div (e (ix2 p k)) ((∑ k' : Fin n, e (ix2 p k')) + Ideal.ofBits .f32 w) := by
  rw [divf_apply, column_broadcast_apply, addf_apply, column_apply]
  refine congrArg (fun x => Ideal.div (e (ix2 p k)) (x + Ideal.ofBits .f32 w)) ?_
  exact (Ideal.multiReduction_add_single e _ hr hφ hacc (ix1 p)).trans
    (Finset.sum_congr rfl fun k' _ => congrArg e (row_lift hr p k'))

/-- The weight of key `k` for query row `p` of a point's blocks. -/
def wLoc (x0 : Vec Ideal S1x512x128 .f32) (x1 : Vec Ideal S1x1024x128 .f32) (x3 : Vec Ideal S1x512x1024 .f32) (x4 : Vec Ideal S1x1 .f32)
    (p : Fin 512) (k : Fin 1024) : EReal :=
  Ideal.exp ((∑ j : Fin 128, x0 (ix3 (0 : Fin 1) p j) * x1 (ix3 (0 : Fin 1) k j)) * x3 (ix3 (0 : Fin 1) p k)
    - x4 (ix2 (0 : Fin 1) (0 : Fin 1))) * x3 (ix3 (0 : Fin 1) p k)

/-- The product of the point's query rows with the transposed keys, read at `(p, k)`. -/
theorem scores_apply (x0 : Vec Ideal S1x512x128 .f32) (x1 : Vec Ideal S1x1024x128 .f32) (p : Fin 512) (k : Fin 1024) :
    matmul (F := Ideal) dot_S512x128_S128x1024_S512x1024_1_0_0_1_n_n none
        (truncf (F := Ideal) .bf16 (shapeCast S512x128 x0 Facts₀.shapeCasts_S1x512x128_S512x128) Facts₀.bitsLt_bf16_f32)
        (transpose S128x1024 [1, 0] (truncf (F := Ideal) .bf16 (shapeCast S1024x128 x1 Facts₀.shapeCasts_S1x1024x128_S1024x128) Facts₀.bitsLt_bf16_f32)
          Facts₀.transposes_S1024x128_p1_0_S128x1024)
        (constant (F := Ideal) S512x1024 .f32 0x00000000#32) (ix2 p k)
      = ∑ j : Fin 128, x0 (ix3 (0 : Fin 1) p j) * x1 (ix3 (0 : Fin 1) k j) := by
  refine (matmul_rows_cols_apply dot_S512x128_S128x1024_S512x1024_1_0_0_1_n_n rfl rfl rfl rfl
    (fun i q => by
      unfold DotDims.lhsIdx
      rw [dif_neg (show ¬(0 : Fin S512x128.rank) ∈ dot_S512x128_S128x1024_S512x1024_1_0_0_1_n_n.lhsBatch by decide),
        dif_pos (show (0 : Fin S512x128.rank) ∈ dot_S512x128_S128x1024_S512x1024_1_0_0_1_n_n.lhsNonContracting by decide)]
      rfl)
    (fun i q => by
      unfold DotDims.rhsIdx
      rw [dif_neg (show ¬(1 : Fin S128x1024.rank) ∈ dot_S512x128_S128x1024_S512x1024_1_0_0_1_n_n.rhsBatch by decide),
        dif_pos (show (1 : Fin S128x1024.rank) ∈ dot_S512x128_S128x1024_S512x1024_1_0_0_1_n_n.rhsNonContracting by decide)]
      rfl)
    none _ _ p k).trans ?_
  refine Finset.sum_congr rfl fun j _ => ?_
  refine congrArg₂ (· * ·) (shapeCast_1ab_ab_apply x0 _ p j) ?_
  exact (transpose_ix2_apply _ _ j k).trans (shapeCast_1ab_ab_apply x1 _ k j)

set_option maxRecDepth 65536 in
/-- THE STORED BLOCK at `(·, p, d)`: the normalised weights of row `p` against column `d` of the values. -/
theorem out_apply (x0 : Vec Ideal S1x512x128 .f32) (x1 x2 : Vec Ideal S1x1024x128 .f32) (x3 : Vec Ideal S1x512x1024 .f32) (x4 : Vec Ideal S1x1 .f32)
    (u : Fin 1) (p : Fin 512) (d : Fin 128) :
    k1_pay1 x0 x1 x2 x3 x4 (ix3 u p d)
      = ∑ k : Fin 1024, Ideal.div (wLoc x0 x1 x3 x4 p k) ((∑ k' : Fin 1024, wLoc x0 x1 x3 x4 p k') + tiny)
          * x2 (ix3 (0 : Fin 1) k d) := by
  have hw : ∀ k : Fin 1024,
      mulf (F := Ideal) (exp (subf (mulf (matmul (F := Ideal) dot_S512x128_S128x1024_S512x1024_1_0_0_1_n_n none
            (truncf (F := Ideal) .bf16 (shapeCast S512x128 x0 Facts₀.shapeCasts_S1x512x128_S512x128) Facts₀.bitsLt_bf16_f32)
            (transpose S128x1024 [1, 0] (truncf (F := Ideal) .bf16 (shapeCast S1024x128 x1 Facts₀.shapeCasts_S1x1024x128_S1024x128) Facts₀.bitsLt_bf16_f32)
              Facts₀.transposes_S1024x128_p1_0_S128x1024)
            (constant (F := Ideal) S512x1024 .f32 0x00000000#32))
          (shapeCast S512x1024 x3 Facts₀.shapeCasts_S1x512x1024_S512x1024))
          (broadcastTo S512x1024 (shapeCast S1x1 x4 Facts₀.shapeCasts_S1x1_S1x1) Facts₀.broadcasts_S1x1_S512x1024)))
        (shapeCast S512x1024 x3 Facts₀.shapeCasts_S1x512x1024_S512x1024) (ix2 p k) = wLoc x0 x1 x3 x4 p k := fun k => by
    refine (weights_apply _ _ _ _ p k).trans ?_
    unfold wLoc
    rw [scores_apply, shapeCast_1ab_ab_apply x3 _ p k, shapeCast_self]
  unfold k1_pay1
  refine (shapeCast_ab_1ab_apply _ _ u p d).trans ?_
  refine (matmul_rows_cols_apply dot_S512x1024_S1024x128_S512x128_1_0_0_1_n_n rfl rfl rfl rfl
    (fun i q => by
      unfold DotDims.lhsIdx
      rw [dif_neg (show ¬(0 : Fin S512x1024.rank) ∈ dot_S512x1024_S1024x128_S512x128_1_0_0_1_n_n.lhsBatch by decide),
        dif_pos (show (0 : Fin S512x1024.rank) ∈ dot_S512x1024_S1024x128_S512x128_1_0_0_1_n_n.lhsNonContracting by decide)]
      rfl)
    (fun i q => by
      unfold DotDims.rhsIdx
      rw [dif_neg (show ¬(1 : Fin S1024x128.rank) ∈ dot_S512x1024_S1024x128_S512x128_1_0_0_1_n_n.rhsBatch by decide),
        dif_pos (show (1 : Fin S1024x128.rank) ∈ dot_S512x1024_S1024x128_S512x128_1_0_0_1_n_n.rhsNonContracting by decide)]
      rfl)
    none _ _ p d).trans ?_
  refine Finset.sum_congr rfl fun k _ => ?_
  refine congrArg₂ (· * ·) ?_ (shapeCast_1ab_ab_apply x2 _ k d)
  refine (normalised_apply _ _ _ _ _ _ _ p k).trans ?_
  refine congrArg₂ Ideal.div (hw k) (congrArg (· + tiny) (Finset.sum_congr rfl fun k' _ => hw k'))

/-! ## The pass over the grid -/

section Pass
variable (V : (c : Dev nD) → (b : Ref sig .tc) → Buf (Elt Ideal) ((c : Thread nD τ).loc b))

theorem N1_lt (t : Fin cfg1.N) : t.val < 128 := lt_of_lt_of_eq t.isLt N_1

/-- The batch entry a grid point works on, and where its query rows sit in that entry. -/
def entry (t : Fin cfg1.N) : Fin 64 := ⟨t.val / 2, by have := N1_lt t; omega⟩
def row (t : Fin cfg1.N) (p : Fin 512) : Fin 1024 := ⟨t.val % 2 * 512 + p.val, by have := p.isLt; omega⟩

/-- The printed index maps over the grid: point `t` is batch entry `t / 2` and half `t % 2` of the query rows; the keys
    and the values are the entry's whole blocks; the subtracted constant is the one cell. -/
theorem idx_facts1 : ∀ t : Fin cfg1.N,
    (win1_0.index t (0 : Fin 3) = t.val / 2 ∧ win1_0.index t (1 : Fin 3) = t.val % 2 ∧ win1_0.index t (2 : Fin 3) = 0)
    ∧ (win1_1.index t (0 : Fin 3) = t.val / 2 ∧ win1_1.index t (1 : Fin 3) = 0 ∧ win1_1.index t (2 : Fin 3) = 0)
    ∧ (win1_2.index t (0 : Fin 3) = t.val / 2 ∧ win1_2.index t (1 : Fin 3) = 0 ∧ win1_2.index t (2 : Fin 3) = 0)
    ∧ (win1_3.index t (0 : Fin 3) = t.val / 2 ∧ win1_3.index t (1 : Fin 3) = t.val % 2 ∧ win1_3.index t (2 : Fin 3) = 0)
    ∧ (win1_4.index t (0 : Fin 2) = 0 ∧ win1_4.index t (1 : Fin 2) = 0)
    ∧ (win1_5.index t (0 : Fin 3) = t.val / 2 ∧ win1_5.index t (1 : Fin 3) = t.val % 2 ∧ win1_5.index t (2 : Fin 3) = 0) :=
  (by decide +kernel : ∀ t : Fin grid1.N, _)

/-- The blocks read where the arrays hold them. -/
theorem blk1_q (c : Dev nD) (t : Fin cfg1.N) (p : Fin 512) (j : Fin 128) :
    blk1 V c 0 t (ix3 (0 : Fin 1) p j) = V c main_arg0 (ix3 (entry t) (row t p) j) := by
  unfold blk1
  show V c main_arg0 (((cfg1.win 0).blk t).view.emb (ix3 (0 : Fin 1) p j)) = _
  refine congrArg (V c main_arg0) (funext fun a => Fin.ext ?_)
  obtain ⟨⟨e0, e1, e2⟩, -, -, -, -, -⟩ := idx_facts1 t
  match a with
  | ⟨0, _⟩ => show win1_0.index t (0 : Fin 3) * 1 + 1 * 0 = t.val / 2; omega
  | ⟨1, _⟩ => show win1_0.index t (1 : Fin 3) * 512 + 1 * p.val = t.val % 2 * 512 + p.val; omega
  | ⟨2, _⟩ => show win1_0.index t (2 : Fin 3) * 128 + 1 * j.val = j.val; omega

theorem blk1_k (c : Dev nD) (t : Fin cfg1.N) (k : Fin 1024) (j : Fin 128) :
    blk1 V c 1 t (ix3 (0 : Fin 1) k j) = V c main_arg1 (ix3 (entry t) k j) := by
  unfold blk1
  show V c main_arg1 (((cfg1.win 1).blk t).view.emb (ix3 (0 : Fin 1) k j)) = _
  refine congrArg (V c main_arg1) (funext fun a => Fin.ext ?_)
  obtain ⟨-, ⟨e0, e1, e2⟩, -, -, -, -⟩ := idx_facts1 t
  match a with
  | ⟨0, _⟩ => show win1_1.index t (0 : Fin 3) * 1 + 1 * 0 = t.val / 2; omega
  | ⟨1, _⟩ => show win1_1.index t (1 : Fin 3) * 1024 + 1 * k.val = k.val; omega
  | ⟨2, _⟩ => show win1_1.index t (2 : Fin 3) * 128 + 1 * j.val = j.val; omega

theorem blk1_v (c : Dev nD) (t : Fin cfg1.N) (k : Fin 1024) (d : Fin 128) :
    blk1 V c 2 t (ix3 (0 : Fin 1) k d) = V c main_arg2 (ix3 (entry t) k d) := by
  unfold blk1
  show V c main_arg2 (((cfg1.win 2).blk t).view.emb (ix3 (0 : Fin 1) k d)) = _
  refine congrArg (V c main_arg2) (funext fun a => Fin.ext ?_)
  obtain ⟨-, -, ⟨e0, e1, e2⟩, -, -, -⟩ := idx_facts1 t
  match a with
  | ⟨0, _⟩ => show win1_2.index t (0 : Fin 3) * 1 + 1 * 0 = t.val / 2; omega
  | ⟨1, _⟩ => show win1_2.index t (1 : Fin 3) * 1024 + 1 * k.val = k.val; omega
  | ⟨2, _⟩ => show win1_2.index t (2 : Fin 3) * 128 + 1 * d.val = d.val; omega

theorem blk1_m (c : Dev nD) (t : Fin cfg1.N) (p : Fin 512) (k : Fin 1024) :
    blk1 V c 3 t (ix3 (0 : Fin 1) p k) = V c main_arg3 (ix3 (entry t) (row t p) k) := by
  unfold blk1
  show V c main_arg3 (((cfg1.win 3).blk t).view.emb (ix3 (0 : Fin 1) p k)) = _
  refine congrArg (V c main_arg3) (funext fun a => Fin.ext ?_)
  obtain ⟨-, -, -, ⟨e0, e1, e2⟩, -, -⟩ := idx_facts1 t
  match a with
  | ⟨0, _⟩ => show win1_3.index t (0 : Fin 3) * 1 + 1 * 0 = t.val / 2; omega
  | ⟨1, _⟩ => show win1_3.index t (1 : Fin 3) * 512 + 1 * p.val = t.val % 2 * 512 + p.val; omega
  | ⟨2, _⟩ => show win1_3.index t (2 : Fin 3) * 1024 + 1 * k.val = k.val; omega

theorem blk1_g (c : Dev nD) (t : Fin cfg1.N)  :
    blk1 V c 4 t (ix2 (0 : Fin 1) (0 : Fin 1)) = V c main_v0 (ix2 (0 : Fin 1) (0 : Fin 1)) := by
  unfold blk1
  show V c main_v0 (((cfg1.win 4).blk t).view.emb (ix2 (0 : Fin 1) (0 : Fin 1))) = _
  refine congrArg (V c main_v0) (funext fun a => Fin.ext ?_)
  obtain ⟨-, -, -, -, ⟨e0, e1⟩, -⟩ := idx_facts1 t
  match a with
  | ⟨0, _⟩ => show win1_4.index t (0 : Fin 2) * 1 + 1 * 0 = 0; omega
  | ⟨1, _⟩ => show win1_4.index t (1 : Fin 2) * 1 + 1 * 0 = 0; omega

/-- A point's weights are the specified weights of its batch entry and query rows. -/
theorem wLoc_eq (c : Dev nD) (t : Fin cfg1.N) (p : Fin 512) (k : Fin 1024) :
    wLoc (blk1 V c 0 t) (blk1 V c 1 t) (blk1 V c 3 t) (blk1 V c 4 t) p k
      = weight (V c main_arg0) (V c main_arg1) (V c main_arg3) (V c main_v0 (ix2 (0 : Fin 1) (0 : Fin 1))) (entry t) (row t p) k := by
  unfold wLoc weight score
  rw [blk1_m, blk1_g]
  refine congrArg (fun s => Ideal.exp (s * _ - _) * _) (Finset.sum_congr rfl fun j _ => ?_)
  rw [blk1_q, blk1_k]

/-- WHAT POINT `t` STORES, at a block index, is the specified function at that index of the array. -/
theorem outBlk_apply (c : Dev nD) (t : Fin cfg1.N) (y : S1x512x128.Idx) :
    outBlk V c t y
      = attn (V c main_arg0) (V c main_arg1) (V c main_arg2) (V c main_arg3) (V c main_v0 (ix2 (0 : Fin 1) (0 : Fin 1)))
          (((cfg1.win 5).blk t).view.emb y) := by
  obtain ⟨u, p, d, rfl⟩ : ∃ (u : Fin 1) (p : Fin 512) (d : Fin 128), y = ix3 u p d := ⟨y 0, y 1, y 2, eq_ix3 y⟩
  have he : ((cfg1.win 5).blk t).view.emb (ix3 u p d) = ix3 (entry t) (row t p) d := funext fun a => Fin.ext (by
    obtain ⟨-, -, -, -, -, ⟨e0, e1, e2⟩⟩ := idx_facts1 t
    have hu : u.val = 0 := by omega
    match a with
    | ⟨0, _⟩ => show win1_5.index t (0 : Fin 3) * 1 + 1 * u.val = t.val / 2; omega
    | ⟨1, _⟩ => show win1_5.index t (1 : Fin 3) * 512 + 1 * p.val = t.val % 2 * 512 + p.val; omega
    | ⟨2, _⟩ => show win1_5.index t (2 : Fin 3) * 128 + 1 * d.val = d.val; omega)
  rw [he, attn_apply]
  unfold outBlk attnAt
  rw [out_apply]
  refine Finset.sum_congr rfl fun k _ => ?_
  rw [blk1_v, wLoc_eq]
  refine congrArg (fun s => Ideal.div _ (s + tiny) * _) (Finset.sum_congr rfl fun k' _ => wLoc_eq V c t p k')

theorem flushed5_eq (c : Dev nD) (t : Fin cfg1.N) :
    (dat1 V c).flushed 5 t = ((cfg1.win 5).blk t).view.read (Elt Ideal)
      (attn (V c main_arg0) (V c main_arg1) (V c main_arg2) (V c main_arg3) (V c main_v0 (ix2 (0 : Fin 1) (0 : Fin 1)))) := by
  show (cfg1.win 5).cut (grid1.coords t) ((dat1 V c).after 5 t) = _
  rw [after1_5]
  funext y
  exact outBlk_apply V c t y

/-- An index of the result array is in point `t`'s block iff each coordinate is in the block's range. -/
theorem mem_blk5 (t : Fin cfg1.N) (i : S64x1024x128.Idx) :
    i ∈ ((cfg1.win 5).blk t).view.set ↔ ∀ a : Fin 3, win1_5.index t a * S1x512x128.size a ≤ (i a).val
      ∧ (i a).val < win1_5.index t a * S1x512x128.size a + S1x512x128.size a := by
  show i ∈ ((View.whole main_v1).slice (win1_5.rect t)).set ↔ _
  rw [View.set_slice_whole, Rect.mem_set_unit]
  exact Iff.rfl

/-- The points' blocks fill the result array: row `r` of batch entry `b` is in the block of point `2 b + r / 512`. -/
theorem covered5 (i : S64x1024x128.Idx) :
    ∃ t : Fin cfg1.N, (cfg1.win 5).flush t = true ∧ i ∈ ((cfg1.win 5).blk t).view.set := by
  have hi0 : (i 0).val < 64 := (i 0).isLt
  have hi1 : (i 1).val < 1024 := (i 1).isLt
  have hi2 : (i 2).val < 128 := (i 2).isLt
  have hN : cfg1.N = 128 := N_1
  refine ⟨⟨(i 0).val * 2 + (i 1).val / 512, by omega⟩, flush1_5 _, ?_⟩
  rw [mem_blk5]
  obtain ⟨-, -, -, -, -, ⟨e0, e1, e2⟩⟩ := idx_facts1 ⟨(i 0).val * 2 + (i 1).val / 512, by omega⟩
  have q0 : ((i 0).val * 2 + (i 1).val / 512) / 2 = (i 0).val := by omega
  have q1 : ((i 0).val * 2 + (i 1).val / 512) % 2 = (i 1).val / 512 := by omega
  dsimp only at e0 e1 e2
  intro a
  match a with
  | ⟨0, _⟩ =>
    show win1_5.index _ (0 : Fin 3) * 1 ≤ (i 0).val ∧ (i 0).val < win1_5.index _ (0 : Fin 3) * 1 + 1
    omega
  | ⟨1, _⟩ =>
    show win1_5.index _ (1 : Fin 3) * 512 ≤ (i 1).val ∧ (i 1).val < win1_5.index _ (1 : Fin 3) * 512 + 512
    omega
  | ⟨2, _⟩ =>
    show win1_5.index _ (2 : Fin 3) * 128 ≤ (i 2).val ∧ (i 2).val < win1_5.index _ (2 : Fin 3) * 128 + 128
    omega

/-- THE RESULT ARRAY after the pass: the specified function of the arrays the pass found. -/
theorem final5 (c : Dev nD) :
    (dat1 V c).arrAt 5 cfg1.N
      = attn (V c main_arg0) (V c main_arg1) (V c main_arg2) (V c main_arg3) (V c main_v0 (ix2 (0 : Fin 1) (0 : Fin 1))) :=
  (dat1 V c).arrAt_eq_of_cover 5 _ (fun t _ => flushed5_eq V c t) covered5

end Pass

end Cert.KernelIdeal.AttnValue

end
-- ==== Proof.IdealKernelValue.lean ====
import proofs.«147856_j76587856823055_1_alg».proof.Proof.IdealRun
import proofs.«147856_j76587856823055_1_alg».proof.Proof.IdealMaxValue
import proofs.«147856_j76587856823055_1_alg».proof.Proof.IdealAttnValue

/-!
  The idealized kernel's result: the specified function of the four arguments, with the first pass's cell as the
  subtracted constant; and that cell has exactly the upper bounds of `-∞` and of every masked score.
-/

noncomputable section

namespace Cert.KernelIdeal.Hand

open Cert.KernelIdeal Cert.KernelIdeal.Gen Idealize.ShloMosaic Idealize.ShloMosaic.ValueIdx Idealize.ShloMosaic.TcCoe
open Idealize.SL.Sem Cert.AttnSpec

variable (m : (ℓ : Loc nD τ sig) → Buf (Elt Ideal) ℓ) (ρ : Dev nD → PrngReg)

/-- The constant the kernel subtracts from every score: what the first pass leaves in its one cell. -/
def gKer (c : Dev nD) : EReal := (dat0 (V0 m ρ) c).arrAt 3 cfg0.N (ix2 (0 : Fin 1) (0 : Fin 1))

theorem gKer_top (c : Dev nD) :
    Top (m ((c.tc : Thread nD τ).loc main_arg0)) (m ((c.tc : Thread nD τ).loc main_arg1)) (m ((c.tc : Thread nD τ).loc main_arg3)) (gKer m ρ c) :=
  Cert.KernelIdeal.MaxValue.maxCell_top (V0 m ρ) c (ix2 (0 : Fin 1) (0 : Fin 1))

/-- The result array at the end of the program. -/
theorem result_eq (c : Dev nD) :
    W2 m ρ c (Proc.devRef .tc main_v1)
      = attn (m ((c.tc : Thread nD τ).loc main_arg0)) (m ((c.tc : Thread nD τ).loc main_arg1)) (m ((c.tc : Thread nD τ).loc main_arg2))
          (m ((c.tc : Thread nD τ).loc main_arg3)) (gKer m ρ c) := by
  rw [W2_main_v1, Cert.KernelIdeal.AttnValue.final5, V1_main_arg0, V1_main_arg1, V1_main_arg2, V1_main_arg3, V1_main_v0]
  rfl

/-- Every weakly fair execution of the idealized kernel terminates with the result array at the specified function of the
    arguments and the arguments unchanged. -/
theorem run_value : θ_run defs (onTc (τ := τ) (main (F := Ideal))) ⟨m, fun _ => 0, ρ⟩ (fun r => ∀ c : Dev nD,
      r.2.mem ((c.tc : Thread nD τ).loc main_v1)
        = attn (m ((c.tc : Thread nD τ).loc main_arg0)) (m ((c.tc : Thread nD τ).loc main_arg1)) (m ((c.tc : Thread nD τ).loc main_arg2))
            (m ((c.tc : Thread nD τ).loc main_arg3)) (gKer m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (result_eq m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Hand

end
-- ==== Proof.RefValue.lean ====
import proofs.«147856_j76587856823055_1_alg».proof.Proof.Gen.ReferenceIdeal.Read
import proofs.«147856_j76587856823055_1_alg».proof.Proof.AttnSpec
import Idealize.ShloMosaic.PureOps.Ideal.Laws
import Idealize.ShloMosaic.PureOps.Reduce

/-!
  The reference computes the specified function: its scores are the masked scores, the constant it subtracts (one
  `max` over every axis, from `-∞`) has exactly the upper bounds of `-∞` and all scores, and its result is the
  normalised weighted sum of the value rows.
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnSpec

variable (x0 x1 x2 : (⟨S64x1024x128, .f32⟩ : BufTy).Contents (Elt Ideal)) (x3 : (⟨S64x1024x1024, .f32⟩ : BufTy).Contents (Elt Ideal))

/-- The constant the reference subtracts from every score. -/
def gRef : EReal := val_main_v2 (F := Ideal) x0 x1 x3 ix0

/-- The reference's masked scores, by coordinates. -/
theorem scores_apply (b : Fin 64) (q k : Fin 1024) :
    val_main_v1 (F := Ideal) x0 x1 x3 (ix3 b q k) = score x0 x1 x3 b q k := by
  rw [val_main_v1_apply, val_main_v0_apply]
  have el : ∀ j, lidx_main_v0 (ix3 b q k) j = ix3 b q j := fun j => funext fun a => Fin.ext (by
    match a with | ⟨0, _⟩ => rfl | ⟨1, _⟩ => rfl | ⟨2, _⟩ => rfl)
  have er : ∀ j, ridx_main_v0 (ix3 b q k) j = ix3 b k j := fun j => funext fun a => Fin.ext (by
    match a with | ⟨0, _⟩ => rfl | ⟨1, _⟩ => rfl | ⟨2, _⟩ => rfl)
  simp only [el, er]
  rfl

/-- The subtracted constant is the fold of `max` from `-∞` over every score, -/
theorem gRef_eq_fold :
    gRef x0 x1 x3 = (Finset.univ : Finset S64x1024x1024.Idx).fold max negInf (val_main_v1 (F := Ideal) x0 x1 x3) := by
  unfold gRef val_main_v2
  rw [Host.reduce_eq_fold, Finset.filter_true_of_mem (fun i _ => funext fun d => d.elim0)]
  rfl

/-- so its upper bounds are those of `-∞` and of every score. -/
theorem gRef_top : Top x0 x1 x3 (gRef x0 x1 x3) := by
  intro x
  rw [gRef_eq_fold, Finset.fold_max_le]
  constructor
  · rintro ⟨h0, h⟩
    exact ⟨h0, fun b q k => by rw [← scores_apply]; exact h _ (Finset.mem_univ _)⟩
  · rintro ⟨h0, h⟩
    refine ⟨h0, fun i _ => ?_⟩
    obtain ⟨b, q, k, rfl⟩ : ∃ (b : Fin 64) (q k : Fin 1024), i = ix3 b q k := ⟨i 0, i 1, i 2, eq_ix3 i⟩
    rw [scores_apply]
    exact h b q k

/-- The reference's weights, by coordinates. -/
theorem weights_apply (b : Fin 64) (q k : Fin 1024) :
    val_main_v6 (F := Ideal) x0 x1 x3 (ix3 b q k) = weight x0 x1 x3 (gRef x0 x1 x3) b q k := by
  rw [val_main_v6_apply, val_main_v5_apply, val_main_v4_apply, val_main_v3_apply, scores_apply]
  rfl

/-- The reference's divisor at `(b, q, ·)`: the row's sum of weights plus the small constant. -/
theorem denom_apply (b : Fin 64) (q k : Fin 1024) :
    val_main_v11 (F := Ideal) x0 x1 x3 (ix3 b q k)
      = (∑ k' : Fin 1024, weight x0 x1 x3 (gRef x0 x1 x3) b q k') + tiny := by
  rw [val_main_v11_apply, val_main_v10_apply, val_main_v8_apply, val_main_v9_apply, val_main_cst_1_apply, val_main_v7_apply,
    val_main_cst_0_apply]
  show (Ideal.ofBits .f32 0x00000000#32 + ∑ k' : Fin 1024, _) + tiny = _
  rw [Ideal.ofBits_zero_f32, zero_add]
  refine congrArg (· + tiny) (Finset.sum_congr rfl fun k' _ => ?_)
  rw [← weights_apply]
  exact congrArg _ (funext fun a => Fin.ext (by match a with | ⟨0, _⟩ => rfl | ⟨1, _⟩ => rfl | ⟨2, _⟩ => rfl))

/-- THE REFERENCE IS THE SPECIFIED FUNCTION, with its own subtracted constant. -/
theorem ref_eq : val_main_v13 (F := Ideal) x0 x1 x2 x3 = attn x0 x1 x2 x3 (gRef x0 x1 x3) := by
  funext i
  obtain ⟨b, q, d, rfl⟩ : ∃ (b : Fin 64) (q : Fin 1024) (d : Fin 128), i = ix3 b q d := ⟨i 0, i 1, i 2, eq_ix3 i⟩
  rw [attn_apply, val_main_v13_apply]
  unfold attnAt
  refine Finset.sum_congr rfl fun k _ => ?_
  have e1 : lidx_main_v13 (ix3 b q d) k = ix3 b q k := funext fun a => Fin.ext (by
    match a with | ⟨0, _⟩ => rfl | ⟨1, _⟩ => rfl | ⟨2, _⟩ => rfl)
  have e2 : ridx_main_v13 (ix3 b q d) k = ix3 b k d := funext fun a => Fin.ext (by
    match a with | ⟨0, _⟩ => rfl | ⟨1, _⟩ => rfl | ⟨2, _⟩ => rfl)
  rw [e1, e2, val_main_v12_apply, weights_apply, denom_apply]
  rfl

end Cert.ReferenceIdeal.RefValue

end
-- ==== Proof.lean ====
/-
  A kernel that computes attention with a multiplicative mask and a GLOBAL maximum subtracted before the exponential, in
  two passes — the first folds the maximum of all masked scores into one cell, batch entry by batch entry; the second
  recomputes the scores, subtracts that cell, exponentiates, masks, divides each row by its sum plus a small constant and
  multiplies by the values — against the same computation written with whole-array operations.

  On the extended reals both are one function of the arguments once the subtracted constant is fixed (`Cert.AttnSpec.attn`).
  The two constants are equal because each has exactly the upper bounds of `-∞` and of every masked score: the kernel's is
  a maximum of per-entry maxima of row maxima, the reference's one maximum over all axes, and `max` is associative,
  commutative and idempotent, so no finiteness is used. The sums, products, exponentials and quotients are then the same
  terms on both sides, in the same order.

  The frames: each pass leaves its input arrays as it found them; the first pass's accumulator cell is carried from
  grid point to grid point in the pass's invariant (`PhiS`).
-/
import proofs.«147856_j76587856823055_1_alg».proof.Defs
import proofs.«147856_j76587856823055_1_alg».proof.Proof.Gen.Kernel
import proofs.«147856_j76587856823055_1_alg».proof.Proof.Gen.KernelIdeal
import proofs.«147856_j76587856823055_1_alg».proof.Proof.Gen.ReferenceIdeal
import proofs.«147856_j76587856823055_1_alg».proof.Proof.Gen.Pre_finite_inputs
import proofs.«147856_j76587856823055_1_alg».proof.Proof.Gen.ReferenceIdeal.Run
import proofs.«147856_j76587856823055_1_alg».proof.Proof.Gen.ReferenceIdeal.Read
import proofs.«147856_j76587856823055_1_alg».proof.Proof.WordRun
import proofs.«147856_j76587856823055_1_alg».proof.Proof.IdealRun
import proofs.«147856_j76587856823055_1_alg».proof.Proof.IdealKernelValue
import proofs.«147856_j76587856823055_1_alg».proof.Proof.RefValue
import Idealize.ShloMosaic.Adequacy
import Idealize.ShloMosaic.Init

noncomputable section

namespace Cert.Proof

open Idealize.ShloMosaic Idealize.SL.Sem

/-- The three programs run to the end without a fault and leave their arguments unchanged. -/
theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the specified function of the arguments; their subtracted constants have the same upper
    bounds, so they are equal, and with them the results. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v13_eq,
    Cert.ReferenceIdeal.RefValue.ref_eq]
  exact congrArg _ (Cert.AttnSpec.top_unique (Cert.ReferenceIdeal.RefValue.gRef_top _ _ _) (Cert.KernelIdeal.Hand.gKer_top m ρ c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
